-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S5000x128 : Shape := ⟨2, ![5000, 128]⟩
abbrev S50000x1 : Shape := ⟨2, ![50000, 1]⟩
abbrev S640000x128 : Shape := ⟨2, ![640000, 128]⟩
abbrev S1x128 : Shape := ⟨2, ![1, 128]⟩

abbrev nBuf : Space → Nat
  | .hbm => 95
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x128, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S50000x128, .bf16⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .bf16⟩
  | .hbm, ⟨38, _⟩ => ⟨S640000x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000, .f32⟩
  | .hbm, ⟨48, _⟩ => ⟨S640000x1, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S50000x128, .f32⟩
  | .hbm, ⟨53, _⟩ => ⟨S640000x1, .i32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .bf16⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x128, .bf16⟩
  | .hbm, ⟨73, _⟩ => ⟨S640000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000, .f32⟩
  | .hbm, ⟨83, _⟩ => ⟨S640000x1, .f32⟩
  | .hbm, ⟨84, _⟩ => ⟨S640000x128, .f32⟩
  | .hbm, ⟨85, _⟩ => ⟨S640000x128, .f32⟩
  | .hbm, ⟨86, _⟩ => ⟨S_, .f32⟩
  | .hbm, ⟨87, _⟩ => ⟨S50000x128, .f32⟩
  | .hbm, ⟨88, _⟩ => ⟨S640000x1, .i32⟩
  | .hbm, ⟨89, _⟩ => ⟨S50000x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S1x128, .f32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x256 : Shape := ⟨2, ![50000, 256]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x128, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S1x640000, .i32⟩
  | 73 => ⟨S640000, .i32⟩
  | 74 => ⟨S690000, .i32⟩
  | 75 => ⟨S1x640000, .i32⟩
  | 76 => ⟨S640000, .i32⟩
  | 77 => ⟨S690000, .i32⟩
  | 78 => ⟨S_, .f32⟩
  | 79 => ⟨S690000, .f32⟩
  | 80 => ⟨S_, .f32⟩
  | 81 => ⟨S50000, .f32⟩
  | 82 => ⟨S690000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S690000, .i32⟩
  | 94 => ⟨S690000, .i1⟩
  | 95 => ⟨S_, .i32⟩
  | 96 => ⟨S690000, .i32⟩
  | 97 => ⟨S690000, .i32⟩
  | 98 => ⟨S690000, .i32⟩
  | 99 => ⟨S690000x1, .i32⟩
  | 100 => ⟨S690000, .f32⟩
  | 101 => ⟨S_, .i32⟩
  | 102 => ⟨S690000, .i32⟩
  | 103 => ⟨S690000, .i1⟩
  | 104 => ⟨S_, .i32⟩
  | 105 => ⟨S690000, .i32⟩
  | 106 => ⟨S690000, .i32⟩
  | 107 => ⟨S690000, .i32⟩
  | 108 => ⟨S690000x1, .i32⟩
  | 109 => ⟨S690000, .f32⟩
  | 110 => ⟨S690000, .f32⟩
  | 111 => ⟨S50000x128, .f32⟩
  | 112 => ⟨S_, .i32⟩
  | 113 => ⟨S690000, .i32⟩
  | 114 => ⟨S690000, .i1⟩
  | 115 => ⟨S_, .i32⟩
  | 116 => ⟨S690000, .i32⟩
  | 117 => ⟨S690000, .i32⟩
  | 118 => ⟨S690000, .i32⟩
  | 119 => ⟨S690000x1, .i32⟩
  | 120 => ⟨S690000x128, .f32⟩
  | 121 => ⟨S690000x1, .f32⟩
  | 122 => ⟨S690000x128, .f32⟩
  | 123 => ⟨S690000x128, .f32⟩
  | 124 => ⟨S_, .f32⟩
  | 125 => ⟨S50000x128, .f32⟩
  | 126 => ⟨S690000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x256, .f32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x256_S256x128_S50000x128_1_0_0_1_n_n_wf : DotDims.WF S50000x256 S256x128 S50000x128 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named. The program is three pipelined regions among stretches of host
  operations; the buffer contents at each boundary are a fold through the program (`Gen.W0` … `Gen.W6`): a stretch of
  host operations applies them, a region leaves each of its output arrays at what its grid points wrote back. Every
  weakly fair execution terminates, nothing faults, and the final memory holds that fold's last stage on every
  unscoped buffer — in particular on the result's buffer and on the arguments, which nothing writes.
-/
import proofs.«150803_j30777735643935_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array ends at the last
    region's exit contents `Gen.W6 m ρ c` of its buffer, and the argument arrays end as launched. -/
theorem run_result : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.KHost.lean ====
/-
  The kernel's edge stage, as whole-array functions of the edge list and of one layer's transformed node features.
  The edge list `ei` has two rows of 640000 words: row 0 the source node of each edge, row 1 its destination.
  `deg` counts, per node, the edges arriving at it, plus one (the node's own self-loop); `dinv` is deg^(-1/2).
  For a layer whose transformed features are `h`: `hs` is h scaled row by row by dinv, `diag` is hs scaled by dinv
  once more (the self-loop's contribution dinv² · h), and `agg` adds up, at every node, the messages of the edges
  arriving there — the message of an edge is hs at its source node times dinv at its destination node. A source or
  destination word is read as a node as an array index is: a negative word has 50000 added first, and the result is
  clamped into the array; an edge whose destination word, read signed and unchanged, names no node adds nothing.
-/
import proofs.«150803_j30777735643935_2_alg».proof.Proof.Gen.KernelIdeal
import Idealize.ShloMosaic.PureOps.Ideal

noncomputable section

namespace Cert.KernelIdeal.KHost

open Cert.KernelIdeal Cert.KernelIdeal.Gen Idealize.ShloMosaic Idealize.ShloMosaic.TcCoe

/-- The source words of the edges (row 0 of the edge list). -/
def src (ei : IVec S2x640000 32) : IVec S640000 32 :=
  shapeCast _ (extractStridedSlice S1x640000 ![0, 0] ei slices_S2x640000_S1x640000_0_0) shapeCasts_S1x640000_S640000
/-- The destination words of the edges (row 1 of the edge list). -/
def dst (ei : IVec S2x640000 32) : IVec S640000 32 :=
  shapeCast _ (extractStridedSlice S1x640000 ![1, 0] ei slices_S2x640000_S1x640000_1_0) shapeCasts_S1x640000_S640000
/-- A word as an array index: a negative word has the number of nodes added. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 50000#32))) v
/-- The degree of every node: the edges arriving at it, plus one. -/
def deg (ei : IVec S2x640000 32) : FVec Ideal S50000 .f32 :=
  addf (Host.scatterAdd (F := Ideal) scatter_S50000_S640000x1_S640000_n_0_0_1
      (broadcastInDim S50000 ![] bcast_S_S50000 (constant S_ .f32 0x00000000#32))
      (broadcastInDim S640000x1 ![0] bcast_S640000_S640000x1_0 (dst ei))
      (broadcastInDim S640000 ![] bcast_S_S640000 (constant S_ .f32 0x3F800000#32)))
    (broadcastInDim S50000 ![] bcast_S_S50000 (constant S_ .f32 0x3F800000#32))
/-- deg^(-1/2). -/
def dinv (ei : IVec S2x640000 32) : FVec Ideal S50000 .f32 := Host.rsqrt (deg ei)
/-- dinv spread along the channels. -/
def dinvCols (ei : IVec S2x640000 32) : FVec Ideal S50000x128 .f32 :=
  broadcastInDim S50000x128 ![0, 1] bcast_S50000x1_S50000x128_0_1 (broadcastInDim S50000x1 ![0] bcast_S50000_S50000x1_0 (dinv ei))
/-- The features scaled by dinv, row by row. -/
def hs (h : FVec Ideal S50000x128 .f32) (ei : IVec S2x640000 32) : FVec Ideal S50000x128 .f32 := mulf h (dinvCols ei)
/-- The self-loop term: the scaled features scaled by dinv once more. -/
def diag (h : FVec Ideal S50000x128 .f32) (ei : IVec S2x640000 32) : FVec Ideal S50000x128 .f32 := mulf (hs h ei) (dinvCols ei)
/-- The messages of the edges: the scaled features at the source node times dinv at the destination node. -/
def msg (h : FVec Ideal S50000x128 .f32) (ei : IVec S2x640000 32) : FVec Ideal S640000x128 .f32 :=
  mulf
    (extf .f32 (Host.gather gather_S50000x128_S640000x1_S640000x128_1_0_n_n_0_1_1128 (truncf .bf16 (hs h ei) bitsLt_bf16_f32)
      (broadcastInDim S640000x1 ![0] bcast_S640000_S640000x1_0 (wrap (src ei)))) bitsLt_bf16_f32)
    (broadcastInDim S640000x128 ![0, 1] bcast_S640000x1_S640000x128_0_1 (broadcastInDim S640000x1 ![0] bcast_S640000_S640000x1_0
      (Host.gather gather_S50000_S640000x1_S640000_n_0_n_n_0_1_1 (dinv ei) (broadcastInDim S640000x1 ![0] bcast_S640000_S640000x1_0 (wrap (dst ei))))))
/-- The aggregate: at every node, the sum of the messages of the edges arriving there. -/
def agg (h : FVec Ideal S50000x128 .f32) (ei : IVec S2x640000 32) : FVec Ideal S50000x128 .f32 :=
  Host.scatterAdd (F := Ideal) scatter_S50000x128_S640000x1_S640000x128_1_0_0_1
    (broadcastInDim S50000x128 ![] bcast_S_S50000x128 (constant S_ .f32 0x00000000#32))
    (broadcastInDim S640000x1 ![0] bcast_S640000_S640000x1_0 (dst ei)) (msg h ei)

end Cert.KernelIdeal.KHost

end
-- ==== Proof.KernelHostRead.lean ====
/-
  What the kernel's host operations leave in their buffers, stretch by stretch, as functions of the launch memory.
  The first stretch cuts the edge list into its source and destination words and computes deg^(-1/2); the second,
  from the first region's product h = x · W1, computes the first layer's aggregate over the edges and its self-loop
  term; the third does the same from the second region's product, and cuts the closing weights in two.
-/
import proofs.«150803_j30777735643935_2_alg».proof.Proof.Gen.KernelIdeal.Frame
import proofs.«150803_j30777735643935_2_alg».proof.Proof.KHost
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list as launched. -/
abbrev ei : IVec S2x640000 32 := m ((c : Thread nD τ).loc main_arg1)

/-! ## After the first stretch -/

theorem w1_src : W1 m ρ c (Proc.devRef .tc main_v1) = KHost.src (ei m c) := by
  show StableHlo.after hostOps0 (W0 m ρ c) (Proc.devRef .tc main_v1) = _
  after_results
  rfl

theorem w1_dst : W1 m ρ c (Proc.devRef .tc main_v3) = KHost.dst (ei m c) := by
  show StableHlo.after hostOps0 (W0 m ρ c) (Proc.devRef .tc main_v3) = _
  after_results
  rfl

theorem w1_dinv : W1 m ρ c (Proc.devRef .tc main_v10) = KHost.dinv (ei m c) := by
  show StableHlo.after hostOps0 (W0 m ρ c) (Proc.devRef .tc main_v10) = _
  after_results
  rfl

/-- A buffer no operation of a stretch writes holds after the stretch what it held before. -/
macro "pass_stretch" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem w1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  pass_stretch hostOps0
theorem w1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  pass_stretch hostOps0
theorem w1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  pass_stretch hostOps0
theorem w1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  pass_stretch hostOps0
theorem w1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  pass_stretch hostOps0
theorem w1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  pass_stretch hostOps0
theorem w1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  pass_stretch hostOps0

/-! ## After the first region: everything but its three arrays is as before -/

theorem w2_src : W2 m ρ c (Proc.devRef .tc main_v1) = KHost.src (ei m c) :=
  (W2_of_ne m ρ c main_v1 (by decide)).trans (w1_src m ρ c)
theorem w2_dst : W2 m ρ c (Proc.devRef .tc main_v3) = KHost.dst (ei m c) :=
  (W2_of_ne m ρ c main_v3 (by decide)).trans (w1_dst m ρ c)
theorem w2_dinv : W2 m ρ c (Proc.devRef .tc main_v10) = KHost.dinv (ei m c) :=
  (W2_of_ne m ρ c main_v10 (by decide)).trans (w1_dinv m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)

/-! ## After the second stretch -/

/-- The first layer's aggregate over the edges, from the first region's product. -/
theorem w3_agg : W3 m ρ c (Proc.devRef .tc main_v38) = KHost.agg (W2 m ρ c (Proc.devRef .tc main_v11)) (ei m c) := by
  show StableHlo.after hostOps1 (W2 m ρ c) (Proc.devRef .tc main_v38) = _
  after_results_simp
  rw [w2_src, w2_dst, w2_dinv]
  rfl

/-- The first layer's self-loop term. -/
theorem w3_diag : W3 m ρ c (Proc.devRef .tc main_v17) = KHost.diag (W2 m ρ c (Proc.devRef .tc main_v11)) (ei m c) := by
  show StableHlo.after hostOps1 (W2 m ρ c) (Proc.devRef .tc main_v17) = _
  after_results_simp
  rw [w2_dinv]
  rfl

/-- The first bias as a row. -/
theorem w3_bias : W3 m ρ c (Proc.devRef .tc main_v39) = shapeCast S1x128 (m ((c : Thread nD τ).loc main_arg3)) shapeCasts_S128_S1x128 := by
  show StableHlo.after hostOps1 (W2 m ρ c) (Proc.devRef .tc main_v39) = _
  after_results_simp
  rw [w2_arg3]
  rfl

theorem w3_src : W3 m ρ c (Proc.devRef .tc main_v1) = KHost.src (ei m c) := by
  refine Eq.trans ?_ (w2_src m ρ c)
  show StableHlo.after hostOps1 (W2 m ρ c) (Proc.devRef .tc main_v1) = W2 m ρ c (Proc.devRef .tc main_v1)
  pass_stretch hostOps1
theorem w3_dst : W3 m ρ c (Proc.devRef .tc main_v3) = KHost.dst (ei m c) := by
  refine Eq.trans ?_ (w2_dst m ρ c)
  show StableHlo.after hostOps1 (W2 m ρ c) (Proc.devRef .tc main_v3) = W2 m ρ c (Proc.devRef .tc main_v3)
  pass_stretch hostOps1
theorem w3_dinv : W3 m ρ c (Proc.devRef .tc main_v10) = KHost.dinv (ei m c) := by
  refine Eq.trans ?_ (w2_dinv m ρ c)
  show StableHlo.after hostOps1 (W2 m ρ c) (Proc.devRef .tc main_v10) = W2 m ρ c (Proc.devRef .tc main_v10)
  pass_stretch hostOps1
theorem w3_arg4 : W3 m ρ c (Proc.devRef .tc main_arg4) = m ((c : Thread nD τ).loc main_arg4) := by
  refine Eq.trans ?_ (w2_arg4 m ρ c)
  show StableHlo.after hostOps1 (W2 m ρ c) (Proc.devRef .tc main_arg4) = W2 m ρ c (Proc.devRef .tc main_arg4)
  pass_stretch hostOps1
theorem w3_arg5 : W3 m ρ c (Proc.devRef .tc main_arg5) = m ((c : Thread nD τ).loc main_arg5) := by
  refine Eq.trans ?_ (w2_arg5 m ρ c)
  show StableHlo.after hostOps1 (W2 m ρ c) (Proc.devRef .tc main_arg5) = W2 m ρ c (Proc.devRef .tc main_arg5)
  pass_stretch hostOps1
theorem w3_arg6 : W3 m ρ c (Proc.devRef .tc main_arg6) = m ((c : Thread nD τ).loc main_arg6) := by
  refine Eq.trans ?_ (w2_arg6 m ρ c)
  show StableHlo.after hostOps1 (W2 m ρ c) (Proc.devRef .tc main_arg6) = W2 m ρ c (Proc.devRef .tc main_arg6)
  pass_stretch hostOps1
theorem w3_arg7 : W3 m ρ c (Proc.devRef .tc main_arg7) = m ((c : Thread nD τ).loc main_arg7) := by
  refine Eq.trans ?_ (w2_arg7 m ρ c)
  show StableHlo.after hostOps1 (W2 m ρ c) (Proc.devRef .tc main_arg7) = W2 m ρ c (Proc.devRef .tc main_arg7)
  pass_stretch hostOps1

/-! ## After the second region: everything but its six arrays is as before -/

theorem w4_src : W4 m ρ c (Proc.devRef .tc main_v1) = KHost.src (ei m c) :=
  (W4_of_ne m ρ c main_v1 (by decide)).trans (w3_src m ρ c)
theorem w4_dst : W4 m ρ c (Proc.devRef .tc main_v3) = KHost.dst (ei m c) :=
  (W4_of_ne m ρ c main_v3 (by decide)).trans (w3_dst m ρ c)
theorem w4_dinv : W4 m ρ c (Proc.devRef .tc main_v10) = KHost.dinv (ei m c) :=
  (W4_of_ne m ρ c main_v10 (by decide)).trans (w3_dinv m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)

/-! ## After the third stretch -/

/-- The second layer's aggregate over the edges, from the second region's product. -/
theorem w5_agg : W5 m ρ c (Proc.devRef .tc main_v67) = KHost.agg (W4 m ρ c (Proc.devRef .tc main_v40_1)) (ei m c) := by
  show StableHlo.after hostOps2 (W4 m ρ c) (Proc.devRef .tc main_v67) = _
  after_results_simp
  rw [w4_src, w4_dst, w4_dinv]
  rfl

/-- The second layer's self-loop term. -/
theorem w5_diag : W5 m ρ c (Proc.devRef .tc main_v46) = KHost.diag (W4 m ρ c (Proc.devRef .tc main_v40_1)) (ei m c) := by
  show StableHlo.after hostOps2 (W4 m ρ c) (Proc.devRef .tc main_v46) = _
  after_results_simp
  rw [w4_dinv]
  rfl

/-- The second bias as a row. -/
theorem w5_bias : W5 m ρ c (Proc.devRef .tc main_v70) = shapeCast S1x128 (m ((c : Thread nD τ).loc main_arg5)) shapeCasts_S128_S1x128 := by
  show StableHlo.after hostOps2 (W4 m ρ c) (Proc.devRef .tc main_v70) = _
  after_results_simp
  rw [w4_arg5]
  rfl

/-- The closing bias as a row. -/
theorem w5_biasLin : W5 m ρ c (Proc.devRef .tc main_v71) = shapeCast S1x128 (m ((c : Thread nD τ).loc main_arg7)) shapeCasts_S128_S1x128 := by
  show StableHlo.after hostOps2 (W4 m ρ c) (Proc.devRef .tc main_v71) = _
  after_results_simp
  rw [w4_arg7]
  rfl

/-- The upper half of the closing weights (rows 0 … 127). -/
theorem w5_wlin1 : W5 m ρ c (Proc.devRef .tc main_v68) = extractStridedSlice S128x128 ![0, 0] (m ((c : Thread nD τ).loc main_arg6)) slices_S256x128_S128x128_0_0 := by
  show StableHlo.after hostOps2 (W4 m ρ c) (Proc.devRef .tc main_v68) = _
  after_results_simp
  rw [w4_arg6]

/-- The lower half of the closing weights (rows 128 … 255). -/
theorem w5_wlin2 : W5 m ρ c (Proc.devRef .tc main_v69) = extractStridedSlice S128x128 ![128, 0] (m ((c : Thread nD τ).loc main_arg6)) slices_S256x128_S128x128_128_0 := by
  show StableHlo.after hostOps2 (W4 m ρ c) (Proc.devRef .tc main_v69) = _
  after_results_simp
  rw [w4_arg6]

/-- The first layer's output passes through the third stretch. -/
theorem w5_x1 : W5 m ρ c (Proc.devRef .tc main_v40_0) = W4 m ρ c (Proc.devRef .tc main_v40_0) := by
  show StableHlo.after hostOps2 (W4 m ρ c) (Proc.devRef .tc main_v40_0) = W4 m ρ c (Proc.devRef .tc main_v40_0)
  pass_stretch hostOps2

end Cert.KernelIdeal.HostRead

end
-- ==== Proof.Spec.lean ====
/-
  The three dense stages of a two-layer graph convolution, as whole-array functions over the extended reals.
  A node array has 50000 rows (nodes) of 128 channels. `mm x w` is the product of the node array `x` with a
  128 × 128 weight matrix: entry (r, c) is the sum over k of x[r, k] · w[k, c]. `act a d b` is the activation of a
  layer: the aggregate over the edges `a`, plus the self-loop term `d`, plus the bias row `b`, clipped below at the
  float literal zero. `lin x1 x2 w1 w2 b` is the closing linear map on the two layers' outputs side by side:
  x1 · w1 + x2 · w2 + b, which is the product of the 256-channel concatenation [x1 | x2] with the stacked weights.
-/
import Idealize.ShloMosaic.PureOps.Ideal
import Idealize.ShloMosaic.Lib.ValueIdx

noncomputable section

open scoped BigOperators

namespace Cert.Spec

open Idealize.ShloMosaic Idealize.ShloMosaic.ValueIdx

/-- A node array: 50000 nodes, 128 channels. -/
abbrev SN : Shape := ⟨2, ![50000, 128]⟩
/-- A square weight matrix. -/
abbrev SW : Shape := ⟨2, ![128, 128]⟩
/-- A bias row. -/
abbrev SB : Shape := ⟨2, ![1, 128]⟩

/-- The node (row) of an index of a node array, as a number below 50000. -/
abbrev row (j : SN.Idx) : Fin 50000 := ⟨(j 0).val, (j 0).isLt⟩
/-- The channel (column) of an index of a node array, as a number below 128. -/
abbrev col (j : SN.Idx) : Fin 128 := ⟨(j 1).val, (j 1).isLt⟩

/-- Node array times weight matrix: entry (r, c) is the sum over k of x[r, k] · w[k, c]. -/
def mm (x : SN.Idx → EReal) (w : SW.Idx → EReal) : SN.Idx → EReal :=
  fun j => ∑ k : Fin 128, x (ix2 (row j) k) * w (ix2 k (col j))

/-- A layer's activation: (aggregate + self-loop term) + bias, clipped below at the literal zero. -/
def act (a d : SN.Idx → EReal) (b : SB.Idx → EReal) : SN.Idx → EReal :=
  fun j => FloatOps.maximumf (F := Ideal) (φ := .f32) ((a j + d j) + b (ix2 (0 : Fin 1) (col j)))
    (Scalar.ofBits (F := Ideal) .f32 0x00000000#32)

/-- The closing linear map: x1 · w1 + x2 · w2 + bias. -/
def lin (x1 x2 : SN.Idx → EReal) (w1 w2 : SW.Idx → EReal) (b : SB.Idx → EReal) : SN.Idx → EReal :=
  fun j => (mm x1 w1 j + mm x2 w2 j) + b (ix2 (0 : Fin 1) (col j))

end Cert.Spec

end
-- ==== Proof.KSpec.lean ====
/-
  The kernel's whole result as one function of its eight arguments. A layer takes node features X, the edge list,
  a weight matrix W and a bias b: h = X · W, then the activation of (aggregate over the edges of h) + (self-loop
  term of h) + b. The result is the closing linear map on the first layer's output and on the second layer's output
  (the second layer applied to the first's output), with the closing weights cut into their upper and lower halves.
-/
import proofs.«150803_j30777735643935_2_alg».proof.Proof.KHost
import proofs.«150803_j30777735643935_2_alg».proof.Proof.Spec

noncomputable section

namespace Cert.KernelIdeal.KSpec

open Cert.KernelIdeal Cert.KernelIdeal.Gen Idealize.ShloMosaic Idealize.ShloMosaic.TcCoe

/-- One layer, as the kernel computes it. -/
def layer (X : S50000x128.Idx → EReal) (ei : IVec S2x640000 32) (W : S128x128.Idx → EReal) (b : S128.Idx → EReal) :
    S50000x128.Idx → EReal :=
  Cert.Spec.act (KHost.agg (Cert.Spec.mm X W) ei) (KHost.diag (Cert.Spec.mm X W) ei) (shapeCast S1x128 b shapeCasts_S128_S1x128)

/-- The whole result. -/
def out (x : S50000x128.Idx → EReal) (ei : IVec S2x640000 32) (W1 : S128x128.Idx → EReal) (b1 : S128.Idx → EReal)
    (W2 : S128x128.Idx → EReal) (b2 : S128.Idx → EReal) (Wl : S256x128.Idx → EReal) (bl : S128.Idx → EReal) :
    S50000x128.Idx → EReal :=
  Cert.Spec.lin (layer x ei W1 b1) (layer (layer x ei W1 b1) ei W2 b2)
    (extractStridedSlice S128x128 ![0, 0] Wl slices_S256x128_S128x128_0_0)
    (extractStridedSlice S128x128 ![128, 0] Wl slices_S256x128_S128x128_128_0)
    (shapeCast S1x128 bl shapeCasts_S128_S1x128)

end Cert.KernelIdeal.KSpec

end
-- ==== Proof.Blocks01Pay.lean ====
/-
  The arithmetic of one row block, read at an index. A block of 5000 rows by 128 channels times a 128 × 128 weight
  matrix, accumulated into zeros, is at entry (p, q) the sum over k of a[p, k] · b[k, q]; over the extended reals the
  changes of float format around the product are the identity. The activation of a block is, entry by entry, the
  larger of (aggregate + self-loop term) + bias and the literal zero, the bias row being the same for every row.
-/
import proofs.«150803_j30777735643935_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks01

open Cert.KernelIdeal Cert.KernelIdeal.Gen Idealize.ShloMosaic Idealize.ShloMosaic.ValueIdx

/-- A block's staging buffer is read and written whole: at offset (0, 0). -/
theorem off_zero : (![0, 0] : Fin 2 → Nat) = fun _ => 0 := funext fun a => by fin_cases a <;> rfl

/-- The dimension numbers of the block product: contract axis 1 of the left with axis 0 of the right. -/
abbrev DD : DotDims S5000x128 S128x128 S5000x128 := dot_S5000x128_S128x128_S5000x128_1_0_0_1_n_n

theorem lhs_row (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl

theorem lhs_k (i : S5000x128.Idx) (q : DD.contr.Idx) : (DD.lhsIdx i q 1).val = (q ⟨0, by decide⟩).val :=
  DD.lhsIdx_val_of_single rfl i q

theorem rhs_k (i : S5000x128.Idx) (q : DD.contr.Idx) : (DD.rhsIdx i q 0).val = (q ⟨0, by decide⟩).val :=
  DD.rhsIdx_val_of_single rfl i q

theorem rhs_col (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A block product into zeros, at entry (p, q): the sum over k of a[p, k] · b[k, q]. -/
theorem prod_apply {φ₁ φ₂ : FTy} (a : FVec Ideal S5000x128 φ₁) (b : FVec Ideal S128x128 φ₂) (p : Fin 5000) (q : Fin 128) :
    matmul DD none a b (constant S5000x128 .f32 0x00000000#32) (ix2 p q) = ∑ k : Fin 128, a (ix2 p k) * b (ix2 k q) := by
  refine (Ideal.matmul_constant_zero_apply DD none a b (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (lhs_k _ _).trans hk)
  have er : DD.rhsIdx (ix2 p q) ((contrEquiv1 DD 128 rfl rfl).symm k) = ix2 k q := funext fun a => Fin.ext (by
    match a with
    | ⟨0, _⟩ => exact (rhs_k _ _).trans hk
    | ⟨1, _⟩ => exact rhs_col _ _)
  rw [el, er]

/-- The first region's block: rows of x times the weight matrix. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact prod_apply _ _ p q

/-- The activation of a block, entry by entry: the larger of (aggregate + self-loop term) + bias and the literal zero. -/
theorem pay1a_apply (x0 x2 : Vec Ideal S5000x128 .f32) (x5 : Vec Ideal S1x128 .f32) (p : Fin 5000) (q : Fin 128) :
    k1_pay1 x0 x2 x5 (ix2 p q) = FloatOps.maximumf (F := Ideal) (φ := .f32) ((x0 (ix2 p q) + x2 (ix2 p q)) + x5 (ix2 (0 : Fin 1) q))
      (Scalar.ofBits (F := Ideal) .f32 0x00000000#32) := by
  unfold k1_pay1
  simp only [shapeCast_self]
  show FloatOps.maximumf (F := Ideal) (φ := .f32) ((x0 (ix2 p q) + x2 (ix2 p q)) + broadcastTo S5000x128 x5 broadcasts_S1x128_S5000x128 (ix2 p q))
      (Scalar.ofBits (F := Ideal) .f32 0x00000000#32) = _
  rw [broadcastTo_1b_ab_apply x5 broadcasts_S1x128_S5000x128 p q]

/-- The second region's product block: the activation block times the weight matrix. -/
theorem pay1b_apply (x0 x2 : Vec Ideal S5000x128 .f32) (x5 : Vec Ideal S1x128 .f32) (x13 : Vec Ideal S128x128 .f32) (p : Fin 5000) (q : Fin 128) :
    k1_pay2 x0 x2 x5 x13 (ix2 p q) = ∑ k : Fin 128, k1_pay1 x0 x2 x5 (ix2 p k) * x13 (ix2 k q) := by
  unfold k1_pay2
  exact prod_apply _ _ p q

end Cert.KernelIdeal.Blocks01

end
-- ==== Proof.Blocks01R0.lean ====
/-
  From row blocks to the whole array, first region. The grid has ten points; point t works on rows
  5000 t … 5000 t + 4999 of the node array and on the whole weight matrix, and writes its product block back to the
  same rows. So the array after the ten points is the product of the node array with the weight matrix.
-/
import proofs.«150803_j30777735643935_2_alg».proof.Proof.Gen.KernelIdeal.Frame
import proofs.«150803_j30777735643935_2_alg».proof.Proof.Spec
import proofs.«150803_j30777735643935_2_alg».proof.Proof.Blocks01Pay
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Blocks01

open Cert.KernelIdeal Cert.KernelIdeal.Gen

variable (V : (c : Dev nD) → (b : Ref sig .tc) → Buf (Elt Ideal) ((c : Thread nD τ).loc b))

/-! ## The first region: rows of x times the weight matrix -/

/-- One entry of a product block is the whole-array product at the entry's place, when the block's row is the array's
    row there and the weight block is the weight matrix. -/
theorem mm_entry (x0 : Vec Ideal S5000x128 .f32) (x1 : Vec Ideal S128x128 .f32)
    (A : Cert.Spec.SN.Idx → EReal) (W : Cert.Spec.SW.Idx → EReal) (i : Cert.Spec.SN.Idx) (p : Fin 5000) (q : Fin 128)
    (h0 : ∀ k : Fin 128, x0 (ix2 p k) = A (ix2 (Cert.Spec.row i) k))
    (h1 : ∀ k : Fin 128, x1 (ix2 k q) = W (ix2 k (Cert.Spec.col i))) :
    k0_pay1 x0 x1 (ix2 p q) = Cert.Spec.mm A W i := by
  rw [pay0_apply]
  unfold Cert.Spec.mm
  exact Finset.sum_congr rfl fun k _ => by rw [h0 k, h1 k]

/-- The block indices over the grid: the row windows sit at block (t, 0), the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_2_eq (c : Dev nD) (t : Fin cfg0.N) :
    (dat0 (F := Ideal) V c).flushed 2 t = ((cfg0.win 2).blk t).view.read (Elt Ideal)
      (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := idx_facts0 t
  funext j
  refine (congrArg (k0_pay1 (iblk0 V c 0 t) (iblk0 V c 1 t)) (eq_ix2 (n0 := 5000) (n1 := 128) j)).trans ?_
  refine mm_entry (iblk0 V c 0 t) (iblk0 V c 1 t) _ _ (((cfg0.win 2).blk t).view.emb j) (j 0) (j 1) (fun k => ?_) (fun k => ?_)
  · unfold iblk0
    rw [View.read_apply]
    refine congrArg (V c (Pipeline.arrRef spec0 0) : Cert.Spec.SN.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · unfold iblk0
    rw [View.read_apply]
    refine congrArg (V c (Pipeline.arrRef spec0 1) : Cert.Spec.SW.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array is in point t's block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v11).slice (win0_2.rect t)).set ↔ _
  rw [View.set_slice_whole, Rect.mem_set_unit]
  exact Iff.rfl

/-- Every entry of the array is in the block of the point its row falls to: row r belongs to point r / 5000. -/
theorem rows_cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array after the ten points: the product of the node array with the weight matrix. -/
theorem final0_2 (c : Dev nD) : (dat0 (F := Ideal) V c).arrAt 2 cfg0.N
    = Cert.Spec.mm (V c (Pipeline.arrRef spec0 0)) (V c (Pipeline.arrRef spec0 1)) :=
  (dat0 V c).arrAt_eq_of_cover 2 _ (fun t _ => flushed0_2_eq V c t) rows_cover0

end Cert.KernelIdeal.Blocks01

end
-- ==== Proof.Blocks01R1.lean ====
/-
  From row blocks to the whole array, second region. Point t of the ten works on rows 5000 t … 5000 t + 4999 of the
  aggregate and of the self-loop term, on the whole bias row and on the whole second weight matrix; it writes back, to
  the same rows, the activation block and the activation block's product with the weight matrix. So after the ten
  points the first output array is the activation of the layer and the second is its product with the weight matrix.
-/
import proofs.«150803_j30777735643935_2_alg».proof.Proof.Gen.KernelIdeal.Frame
import proofs.«150803_j30777735643935_2_alg».proof.Proof.Spec
import proofs.«150803_j30777735643935_2_alg».proof.Proof.Blocks01Pay
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Blocks01

open Cert.KernelIdeal Cert.KernelIdeal.Gen

variable (V : (c : Dev nD) → (b : Ref sig .tc) → Buf (Elt Ideal) ((c : Thread nD τ).loc b))

/-! ## One entry of each result block -/

/-- One entry of an activation block is the whole-array activation at the entry's place, when the three input
    entries it reads are the arrays' entries there. -/
theorem act_entry (x0 x2 : Vec Ideal S5000x128 .f32) (x5 : Vec Ideal S1x128 .f32)
    (A D : Cert.Spec.SN.Idx → EReal) (B : Cert.Spec.SB.Idx → EReal) (i : Cert.Spec.SN.Idx) (p : Fin 5000) (q : Fin 128)
    (h0 : x0 (ix2 p q) = A i) (h1 : x2 (ix2 p q) = D i)
    (h2 : x5 (ix2 (0 : Fin 1) q) = B (ix2 (0 : Fin 1) (Cert.Spec.col i))) :
    k1_pay1 x0 x2 x5 (ix2 p q) = Cert.Spec.act A D B i := by
  rw [pay1a_apply, h0, h1, h2]
  rfl

/-- One entry of the product block is the product of the whole-array activation with the weight matrix there. -/
theorem actmm_entry (x0 x2 : Vec Ideal S5000x128 .f32) (x5 : Vec Ideal S1x128 .f32) (x13 : Vec Ideal S128x128 .f32)
    (A D : Cert.Spec.SN.Idx → EReal) (B : Cert.Spec.SB.Idx → EReal) (W : Cert.Spec.SW.Idx → EReal)
    (i : Cert.Spec.SN.Idx) (p : Fin 5000) (q : Fin 128)
    (h0 : ∀ k : Fin 128, x0 (ix2 p k) = A (ix2 (Cert.Spec.row i) k))
    (h1 : ∀ k : Fin 128, x2 (ix2 p k) = D (ix2 (Cert.Spec.row i) k))
    (h2 : ∀ k : Fin 128, x5 (ix2 (0 : Fin 1) k) = B (ix2 (0 : Fin 1) k))
    (h3 : ∀ k : Fin 128, x13 (ix2 k q) = W (ix2 k (Cert.Spec.col i))) :
    k1_pay2 x0 x2 x5 x13 (ix2 p q) = Cert.Spec.mm (Cert.Spec.act A D B) W i := by
  rw [pay1b_apply]
  unfold Cert.Spec.mm
  refine Finset.sum_congr rfl fun k _ => ?_
  rw [act_entry x0 x2 x5 A D B (ix2 (Cert.Spec.row i) k) p k (h0 k) (h1 k) (h2 k), h3 k]

/-! ## Where the blocks sit -/

/-- The block indices over the grid: the row windows sit at block (t, 0), the bias and weight windows at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregate's block at point t, entry (p, k), is the aggregate at row 5000 t + p, channel k. -/
theorem agg_block (c : Dev nD) (t : Fin cfg1.N) (p : Fin 5000) (k : Fin 128) (i : Cert.Spec.SN.Idx)
    (h0 : (i 0).val = t.val * 5000 + p.val) (h1 : (i 1).val = k.val) :
    (iblk1 V c 0 t : Vec Ideal S5000x128 .f32) (ix2 p k) = (V c (Pipeline.arrRef spec1 0) : Cert.Spec.SN.Idx → EReal) i := by
  obtain ⟨e0, e1, -⟩ := idx_facts1 t
  unfold iblk1
  rw [View.read_apply]
  refine congrArg (V c (Pipeline.arrRef spec1 0) : Cert.Spec.SN.Idx → EReal) (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- The self-loop term's block at point t, entry (p, k), is the term at row 5000 t + p, channel k. -/
theorem diag_block (c : Dev nD) (t : Fin cfg1.N) (p : Fin 5000) (k : Fin 128) (i : Cert.Spec.SN.Idx)
    (h0 : (i 0).val = t.val * 5000 + p.val) (h1 : (i 1).val = k.val) :
    (iblk1 V c 1 t : Vec Ideal S5000x128 .f32) (ix2 p k) = (V c (Pipeline.arrRef spec1 1) : Cert.Spec.SN.Idx → EReal) i := by
  obtain ⟨-, -, e2, e3, -⟩ := idx_facts1 t
  unfold iblk1
  rw [View.read_apply]
  refine congrArg (V c (Pipeline.arrRef spec1 1) : Cert.Spec.SN.Idx → EReal) (funext fun a => Fin.ext ?_)
  match a with
  | ⟨0, _⟩ => show win1_1.index t (0 : Fin 2) * 5000 + 1 * p.val = (i 0).val; omega
  | ⟨1, _⟩ => show win1_1.index t (1 : Fin 2) * 128 + 1 * k.val = (i 1).val; omega

/-- The bias window's block at every point is the bias row. -/
theorem bias_block (c : Dev nD) (t : Fin cfg1.N) (k : Fin 128) (i : Cert.Spec.SB.Idx) (h1 : (i 1).val = k.val) :
    (iblk1 V c 2 t : Vec Ideal S1x128 .f32) (ix2 (0 : Fin 1) k) = (V c (Pipeline.arrRef spec1 2) : Cert.Spec.SB.Idx → EReal) i := by
  obtain ⟨-, -, -, -, e4, e5, -⟩ := idx_facts1 t
  have hi0 : (i 0).val < 1 := (i 0).isLt
  unfold iblk1
  rw [View.read_apply]
  refine congrArg (V c (Pipeline.arrRef spec1 2) : Cert.Spec.SB.Idx → EReal) (funext fun a => Fin.ext ?_)
  match a with
  | ⟨0, _⟩ => show win1_2.index t (0 : Fin 2) * 1 + 1 * 0 = (i 0).val; omega
  | ⟨1, _⟩ => show win1_2.index t (1 : Fin 2) * 128 + 1 * k.val = (i 1).val; omega

/-- The weight window's block at every point is the weight matrix. -/
theorem weight_block (c : Dev nD) (t : Fin cfg1.N) (k q : Fin 128) (i : Cert.Spec.SW.Idx)
    (h0 : (i 0).val = k.val) (h1 : (i 1).val = q.val) :
    (iblk1 V c 3 t : Vec Ideal S128x128 .f32) (ix2 k q) = (V c (Pipeline.arrRef spec1 3) : Cert.Spec.SW.Idx → EReal) i := by
  obtain ⟨-, -, -, -, -, -, e6, e7, -⟩ := idx_facts1 t
  unfold iblk1
  rw [View.read_apply]
  refine congrArg (V c (Pipeline.arrRef spec1 3) : Cert.Spec.SW.Idx → EReal) (funext fun a => Fin.ext ?_)
  match a with
  | ⟨0, _⟩ => show win1_3.index t (0 : Fin 2) * 128 + 1 * k.val = (i 0).val; omega
  | ⟨1, _⟩ => show win1_3.index t (1 : Fin 2) * 128 + 1 * q.val = (i 1).val; omega

/-- Entry j of the first output's block at point t sits in the array at row 5000 t + j₀, channel j₁. -/
theorem place1_4 (t : Fin cfg1.N) (j : S5000x128.Idx) :
    ((((cfg1.win 4).blk t).view.emb j) 0).val = t.val * 5000 + (j 0).val ∧ ((((cfg1.win 4).blk t).view.emb j) 1).val = (j 1).val := by
  obtain ⟨-, -, -, -, -, -, -, -, e8, e9, -⟩ := idx_facts1 t
  constructor
  · show win1_4.index t (0 : Fin 2) * 5000 + 1 * (j 0).val = _; omega
  · show win1_4.index t (1 : Fin 2) * 128 + 1 * (j 1).val = _; omega

/-- Entry j of the second output's block at point t sits in the array at row 5000 t + j₀, channel j₁. -/
theorem place1_5 (t : Fin cfg1.N) (j : S5000x128.Idx) :
    ((((cfg1.win 5).blk t).view.emb j) 0).val = t.val * 5000 + (j 0).val ∧ ((((cfg1.win 5).blk t).view.emb j) 1).val = (j 1).val := by
  obtain ⟨-, -, -, -, -, -, -, -, -, -, e10, e11⟩ := idx_facts1 t
  constructor
  · show win1_5.index t (0 : Fin 2) * 5000 + 1 * (j 0).val = _; omega
  · show win1_5.index t (1 : Fin 2) * 128 + 1 * (j 1).val = _; omega

/-! ## What each point writes back -/

/-- What point t writes back to the first output is block t of the activation of the arrays as the region finds them. -/
theorem flushed1_4_eq (c : Dev nD) (t : Fin cfg1.N) :
    (dat1 (F := Ideal) V c).flushed 4 t = ((cfg1.win 4).blk t).view.read (Elt Ideal)
      (Cert.Spec.act (V c (Pipeline.arrRef spec1 0)) (V c (Pipeline.arrRef spec1 1)) (V c (Pipeline.arrRef spec1 2))) := by
  show (cfg1.win 4).cut (grid1.coords t) ((dat1 V c).after 4 t) = _
  rw [after1_4]
  unfold out1_4
  rw [View.canon_unit_zero off_zero]
  simp only [View.ld_unit_zero (S := S5000x128) off_zero, View.ld_unit_zero (S := S1x128) off_zero]
  funext j
  obtain ⟨hr, hc⟩ := place1_4 t j
  refine (congrArg (k1_pay1 (iblk1 V c 0 t) (iblk1 V c 1 t) (iblk1 V c 2 t)) (eq_ix2 (n0 := 5000) (n1 := 128) j)).trans ?_
  exact act_entry (iblk1 V c 0 t) (iblk1 V c 1 t) (iblk1 V c 2 t) _ _ _ (((cfg1.win 4).blk t).view.emb j) (j 0) (j 1)
    (agg_block V c t (j 0) (j 1) _ hr hc) (diag_block V c t (j 0) (j 1) _ hr hc) (bias_block V c t (j 1) _ hc)

/-- What point t writes back to the second output is block t of the activation's product with the weight matrix. -/
theorem flushed1_5_eq (c : Dev nD) (t : Fin cfg1.N) :
    (dat1 (F := Ideal) V c).flushed 5 t = ((cfg1.win 5).blk t).view.read (Elt Ideal)
      (Cert.Spec.mm (Cert.Spec.act (V c (Pipeline.arrRef spec1 0)) (V c (Pipeline.arrRef spec1 1)) (V c (Pipeline.arrRef spec1 2)))
        (V c (Pipeline.arrRef spec1 3))) := by
  show (cfg1.win 5).cut (grid1.coords t) ((dat1 V c).after 5 t) = _
  rw [after1_5]
  unfold out1_5
  rw [View.canon_unit_zero off_zero]
  simp only [View.ld_unit_zero (S := S5000x128) off_zero, View.ld_unit_zero (S := S1x128) off_zero, View.ld_unit_zero (S := S128x128) off_zero]
  funext j
  obtain ⟨hr, hc⟩ := place1_5 t j
  refine (congrArg (k1_pay2 (iblk1 V c 0 t) (iblk1 V c 1 t) (iblk1 V c 2 t) (iblk1 V c 3 t)) (eq_ix2 (n0 := 5000) (n1 := 128) j)).trans ?_
  exact actmm_entry (iblk1 V c 0 t) (iblk1 V c 1 t) (iblk1 V c 2 t) (iblk1 V c 3 t) _ _ _ _ (((cfg1.win 5).blk t).view.emb j) (j 0) (j 1)
    (fun k => agg_block V c t (j 0) k _ hr rfl) (fun k => diag_block V c t (j 0) k _ hr rfl)
    (fun k => bias_block V c t k _ rfl) (fun k => weight_block V c t k (j 1) _ rfl hc)

/-! ## The blocks cover the arrays -/

/-- An index of the first output array is in point t's block iff each coordinate is in the block's range. -/
theorem mem_blk1_4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v40_0).slice (win1_4.rect t)).set ↔ _
  rw [View.set_slice_whole, Rect.mem_set_unit]
  exact Iff.rfl

/-- An index of the second output array is in point t's block iff each coordinate is in the block's range. -/
theorem mem_blk1_5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40_1).slice (win1_5.rect t)).set ↔ _
  rw [View.set_slice_whole, Rect.mem_set_unit]
  exact Iff.rfl

/-- Every entry of the first output is in the block of the point its row falls to: row r belongs to point r / 5000. -/
theorem rows_cover1_4 (i : S50000x128.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, e8, e9, -⟩ := idx_facts1 t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The same for the second output. -/
theorem rows_cover1_5 (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, e10, e11⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The arrays after the ten points -/

/-- The first output array: the activation of the layer. -/
theorem final1_4 (c : Dev nD) : (dat1 (F := Ideal) V c).arrAt 4 cfg1.N
    = Cert.Spec.act (V c (Pipeline.arrRef spec1 0)) (V c (Pipeline.arrRef spec1 1)) (V c (Pipeline.arrRef spec1 2)) :=
  (dat1 V c).arrAt_eq_of_cover 4 _ (fun t _ => flushed1_4_eq V c t) rows_cover1_4

/-- The second output array: the activation's product with the second weight matrix. -/
theorem final1_5 (c : Dev nD) : (dat1 (F := Ideal) V c).arrAt 5 cfg1.N
    = Cert.Spec.mm (Cert.Spec.act (V c (Pipeline.arrRef spec1 0)) (V c (Pipeline.arrRef spec1 1)) (V c (Pipeline.arrRef spec1 2)))
        (V c (Pipeline.arrRef spec1 3)) :=
  (dat1 V c).arrAt_eq_of_cover 5 _ (fun t _ => flushed1_5_eq V c t) rows_cover1_5

end Cert.KernelIdeal.Blocks01

end
-- ==== Proof.Blocks01.lean ====
/-
  The first two regions, from row blocks to whole arrays: the array each region leaves is one function of the arrays
  it finds (the first region in Blocks01R0, the second in Blocks01R1).
-/
import proofs.«150803_j30777735643935_2_alg».proof.Proof.Blocks01R0
import proofs.«150803_j30777735643935_2_alg».proof.Proof.Blocks01R1
-- ==== Proof.Blocks2Pay.lean ====
/-
  The arithmetic of the closing region's body at one element of a row block.

  The body reads a block of 5000 rows of the first layer's output x1, of the second layer's edge aggregate a
  and self-loop term d, the second layer's bias row b2, the two 128 × 128 halves w1, w2 of the closing
  weights and the closing bias row bl, and stores, at row p and channel q,
      (∑ k, x1[p, k] · w1[k, q]  +  ∑ k, max(a[p, k] + d[p, k] + b2[0, k], 0) · w2[k, q])  +  bl[0, q].
  Over the extended reals a change of float format is the identity and a matrix product into a zero accumulator is
  the plain sum over the contracted channel.
-/
import proofs.«150803_j30777735643935_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks2

open Cert.KernelIdeal Idealize.ShloMosaic Idealize.ShloMosaic.ValueIdx

/-- The contraction record of a [5000,128] × [128,128] product. -/
abbrev D2 : DotDims S5000x128 S128x128 S5000x128 := dot_S5000x128_S128x128_S5000x128_1_0_0_1_n_n

theorem lhs0 (i : S5000x128.Idx) (q : D2.contr.Idx) : (D2.lhsIdx i q 0).val = (i 0).val := by
  unfold DotDims.lhsIdx
  rw [dif_neg (show ¬(0 : Fin S5000x128.rank) ∈ D2.lhsBatch by decide), dif_pos (show (0 : Fin S5000x128.rank) ∈ D2.lhsNonContracting by decide)]
  rfl
theorem lhs1 (i : S5000x128.Idx) (q : D2.contr.Idx) : (D2.lhsIdx i q 1).val = (q ⟨0, by decide⟩).val :=
  D2.lhsIdx_val_of_single rfl i q
theorem rhs0 (i : S5000x128.Idx) (q : D2.contr.Idx) : (D2.rhsIdx i q 0).val = (q ⟨0, by decide⟩).val :=
  D2.rhsIdx_val_of_single rfl i q
theorem rhs1 (i : S5000x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- A block of rows times a square matrix, into a zero accumulator: entry (p, q) is the sum over the contracted
    channel k of x[p, k] · w[k, q]. -/
theorem mm_block_apply (x : FVec Ideal S5000x128 .bf16) (w : FVec Ideal S128x128 .bf16) (p : Fin 5000) (q : Fin 128) :
    matmul D2 none x w (constant S5000x128 .f32 0x00000000#32) (ix2 p q) = ∑ k : Fin 128, x (ix2 p k) * w (ix2 k q) := by
  simp only [matmul]
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p q) ((contrEquiv1 D2 128 rfl rfl).symm k) = ix2 p k := funext fun a => Fin.ext (by
    match a with
    | ⟨0, _⟩ => exact lhs0 _ _
    | ⟨1, _⟩ => exact (lhs1 _ _).trans hk)
  have er : D2.rhsIdx (ix2 p q) ((contrEquiv1 D2 128 rfl rfl).symm k) = ix2 k q := funext fun a => Fin.ext (by
    match a with
    | ⟨0, _⟩ => exact (rhs0 _ _).trans hk
    | ⟨1, _⟩ => exact rhs1 _ _)
  rw [el, er]

/-- The body's stored value at row p, channel q of the block. -/
theorem pay_apply (a d : Vec Ideal S5000x128 .f32) (b2 : Vec Ideal S1x128 .f32) (x1 : Vec Ideal S5000x128 .f32)
    (w1 w2 : Vec Ideal S128x128 .f32) (bl : Vec Ideal S1x128 .f32) (p : Fin 5000) (q : Fin 128) :
    Gen.k2_pay1 a d b2 x1 w1 w2 bl (ix2 p q)
      = ((∑ k : Fin 128, x1 (ix2 p k) * w1 (ix2 k q))
          + (∑ k : Fin 128, FloatOps.maximumf (F := Ideal) (φ := .f32) ((a (ix2 p k) + d (ix2 p k)) + b2 (ix2 (0 : Fin 1) k))
              (Scalar.ofBits (F := Ideal) .f32 0x00000000#32) * w2 (ix2 k q)))
        + bl (ix2 (0 : Fin 1) q) := by
  unfold Gen.k2_pay1
  simp only [shapeCast_self]
  rw [addf_apply, addf_apply, broadcastTo_1b_ab_apply, mm_block_apply, mm_block_apply]
  simp only [truncf_apply, maximumf_apply, addf_apply, broadcast_apply, broadcastTo_1b_ab_apply]
  rfl

end Cert.KernelIdeal.Blocks2

end
-- ==== Proof.Blocks2.lean ====
/-
  The closing region's output array after all ten row blocks, as one whole-array function of the arrays it reads.

  The region walks ten blocks of 5000 rows. At block t the body reads rows 5000·t … 5000·t + 4999 of the first
  layer's output, of the second layer's edge aggregate and of its self-loop term, and the whole bias rows and weight
  matrices, and writes the same rows of the result. Every element the body stores is the closing linear map of the
  specification at that element's place in the array; the ten blocks tile the 50000 rows, so the array ends holding
  the closing linear map everywhere.
-/
import proofs.«150803_j30777735643935_2_alg».proof.Proof.Gen.KernelIdeal.Frame
import proofs.«150803_j30777735643935_2_alg».proof.Proof.Spec
import proofs.«150803_j30777735643935_2_alg».proof.Proof.Blocks2Pay
import Idealize.ShloMosaic.Lib.Pipeline.Value
import Idealize.ShloMosaic.Lib.Tactic

set_option maxRecDepth 16384

noncomputable section

open scoped BigOperators

namespace Cert.KernelIdeal.Blocks2

open Cert.KernelIdeal Idealize.ShloMosaic Idealize.ShloMosaic.TcCoe Idealize.ShloMosaic.ValueIdx Idealize.SL.Sem
open Idealize.ShloMosaic.Pipeline (Dat)

/-- The body's stored block is the block of the closing linear map: if the row blocks x1, a, d are the arrays
    X0, X1, X2 read through one placement e of the block in the array that moves rows by a fixed offset and keeps
    channels, and the bias rows and weight matrices are read whole, then the stored value at j is the closing
    linear map at e j. -/
theorem pay_eq_lin (X0 X1 X2 : Cert.Spec.SN.Idx → EReal) (X3 : Cert.Spec.SB.Idx → EReal)
    (X4 X5 : Cert.Spec.SW.Idx → EReal) (X6 : Cert.Spec.SB.Idx → EReal)
    (a d : Vec Ideal S5000x128 .f32) (b2 : Vec Ideal S1x128 .f32) (x1 : Vec Ideal S5000x128 .f32)
    (w1 w2 : Vec Ideal S128x128 .f32) (bl : Vec Ideal S1x128 .f32)
    (e : S5000x128.Idx → Cert.Spec.SN.Idx) (off : Nat)
    (he0 : ∀ y, (e y 0).val = off + (y 0).val) (he1 : ∀ y, (e y 1).val = (y 1).val)
    (hx1 : ∀ y, x1 y = X0 (e y)) (ha : ∀ y, a y = X1 (e y)) (hd : ∀ y, d y = X2 (e y))
    (hb2 : ∀ y, b2 y = X3 y) (hw1 : ∀ y, w1 y = X4 y) (hw2 : ∀ y, w2 y = X5 y) (hbl : ∀ y, bl y = X6 y)
    (j : S5000x128.Idx) :
    Gen.k2_pay1 a d b2 x1 w1 w2 bl j = Cert.Spec.lin X0 (Cert.Spec.act X1 X2 X3) X4 X5 X6 (e j) := by
  obtain ⟨p, q, rfl⟩ : ∃ (p : Fin 5000) (q : Fin 128), j = ix2 p q := ⟨j 0, j 1, eq_ix2 j⟩
  rw [pay_apply]
  have hcol : Cert.Spec.col (e (ix2 p q)) = q := Fin.ext (he1 _)
  have hrow : ∀ k : Fin 128, e (ix2 p k) = ix2 (Cert.Spec.row (e (ix2 p q))) k := fun k => funext fun ax => Fin.ext (by
    match ax with
    | ⟨0, _⟩ => show (e (ix2 p k) 0).val = (e (ix2 p q) 0).val; rw [he0, he0]
    | ⟨1, _⟩ => show (e (ix2 p k) 1).val = k.val; rw [he1])
  unfold Cert.Spec.lin Cert.Spec.mm Cert.Spec.act
  rw [hcol]
  refine congrArg₂ (· + ·) (congrArg₂ (· + ·) (Finset.sum_congr rfl fun k _ => ?_) (Finset.sum_congr rfl fun k _ => ?_)) (hbl _)
  · rw [hx1, hw1, hrow k]
  · rw [ha, hd, hb2, hw2, hrow k]

/-! ## Where a block sits in its array -/

theorem hz : (![0, 0] : Fin 2 → Nat) = fun _ => 0 := funext fun a => by fin_cases a <;> rfl

/-- The index maps over the ten grid points: the row-block windows sit at block (t, 0), the bias rows and the weight
    matrices at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- The closing linear map of the arrays as the region finds them. -/
abbrev G2 (c : Dev nD) : Cert.Spec.SN.Idx → EReal :=
  Cert.Spec.lin (V c (Pipeline.arrRef spec2 0))
    (Cert.Spec.act (V c (Pipeline.arrRef spec2 1)) (V c (Pipeline.arrRef spec2 2)) (V c (Pipeline.arrRef spec2 3)))
    (V c (Pipeline.arrRef spec2 4)) (V c (Pipeline.arrRef spec2 5)) (V c (Pipeline.arrRef spec2 6))

/-- Window 0's block at point t is its array read at the result block's place: both are rows 5000·t … of all channels. -/
theorem blk_rows0 (c : Dev nD) (t : Fin cfg2.N) (y : S5000x128.Idx) :
    (Gen.iblk2 V c 0 t : Vec Ideal S5000x128 .f32) y
      = (V c (Pipeline.arrRef spec2 0) : Cert.Spec.SN.Idx → EReal) (((cfg2.win 7).blk t).view.emb y) := by
  obtain ⟨e00, e01, e10, e11, e20, e21, e30, e31, e40, e41, e50, e51, e60, e61, e70, e71⟩ := idx_facts t
  show (V c (Pipeline.arrRef spec2 0) : Cert.Spec.SN.Idx → EReal) (((cfg2.win 0).blk t).view.emb y) = _
  refine congrArg (V c (Pipeline.arrRef spec2 0) : Cert.Spec.SN.Idx → EReal) (funext fun ax => Fin.ext ?_)
  match ax with
  | ⟨0, _⟩ => show win2_0.index t (0 : Fin 2) * 5000 + 1 * (y 0).val = win2_7.index t (0 : Fin 2) * 5000 + 1 * (y 0).val; omega
  | ⟨1, _⟩ => show win2_0.index t (1 : Fin 2) * 128 + 1 * (y 1).val = win2_7.index t (1 : Fin 2) * 128 + 1 * (y 1).val; omega

/-- Window 1's block at point t is its array read at the result block's place: both are rows 5000·t … of all channels. -/
theorem blk_rows1 (c : Dev nD) (t : Fin cfg2.N) (y : S5000x128.Idx) :
    (Gen.iblk2 V c 1 t : Vec Ideal S5000x128 .f32) y
      = (V c (Pipeline.arrRef spec2 1) : Cert.Spec.SN.Idx → EReal) (((cfg2.win 7).blk t).view.emb y) := by
  obtain ⟨e00, e01, e10, e11, e20, e21, e30, e31, e40, e41, e50, e51, e60, e61, e70, e71⟩ := idx_facts t
  show (V c (Pipeline.arrRef spec2 1) : Cert.Spec.SN.Idx → EReal) (((cfg2.win 1).blk t).view.emb y) = _
  refine congrArg (V c (Pipeline.arrRef spec2 1) : Cert.Spec.SN.Idx → EReal) (funext fun ax => Fin.ext ?_)
  match ax with
  | ⟨0, _⟩ => show win2_1.index t (0 : Fin 2) * 5000 + 1 * (y 0).val = win2_7.index t (0 : Fin 2) * 5000 + 1 * (y 0).val; omega
  | ⟨1, _⟩ => show win2_1.index t (1 : Fin 2) * 128 + 1 * (y 1).val = win2_7.index t (1 : Fin 2) * 128 + 1 * (y 1).val; omega

/-- Window 2's block at point t is its array read at the result block's place: both are rows 5000·t … of all channels. -/
theorem blk_rows2 (c : Dev nD) (t : Fin cfg2.N) (y : S5000x128.Idx) :
    (Gen.iblk2 V c 2 t : Vec Ideal S5000x128 .f32) y
      = (V c (Pipeline.arrRef spec2 2) : Cert.Spec.SN.Idx → EReal) (((cfg2.win 7).blk t).view.emb y) := by
  obtain ⟨e00, e01, e10, e11, e20, e21, e30, e31, e40, e41, e50, e51, e60, e61, e70, e71⟩ := idx_facts t
  show (V c (Pipeline.arrRef spec2 2) : Cert.Spec.SN.Idx → EReal) (((cfg2.win 2).blk t).view.emb y) = _
  refine congrArg (V c (Pipeline.arrRef spec2 2) : Cert.Spec.SN.Idx → EReal) (funext fun ax => Fin.ext ?_)
  match ax with
  | ⟨0, _⟩ => show win2_2.index t (0 : Fin 2) * 5000 + 1 * (y 0).val = win2_7.index t (0 : Fin 2) * 5000 + 1 * (y 0).val; omega
  | ⟨1, _⟩ => show win2_2.index t (1 : Fin 2) * 128 + 1 * (y 1).val = win2_7.index t (1 : Fin 2) * 128 + 1 * (y 1).val; omega

/-- Window 3's block at every point is its whole array. -/
theorem blk_whole3 (c : Dev nD) (t : Fin cfg2.N) (y : S1x128.Idx) :
    (Gen.iblk2 V c 3 t : Vec Ideal S1x128 .f32) y = (V c (Pipeline.arrRef spec2 3) : Cert.Spec.SB.Idx → EReal) y := by
  obtain ⟨e00, e01, e10, e11, e20, e21, e30, e31, e40, e41, e50, e51, e60, e61, e70, e71⟩ := idx_facts t
  show (V c (Pipeline.arrRef spec2 3) : Cert.Spec.SB.Idx → EReal) (((cfg2.win 3).blk t).view.emb y) = _
  refine congrArg (V c (Pipeline.arrRef spec2 3) : Cert.Spec.SB.Idx → EReal) (funext fun ax => Fin.ext ?_)
  match ax with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block at every point is its whole array. -/
theorem blk_whole4 (c : Dev nD) (t : Fin cfg2.N) (y : S128x128.Idx) :
    (Gen.iblk2 V c 4 t : Vec Ideal S128x128 .f32) y = (V c (Pipeline.arrRef spec2 4) : Cert.Spec.SW.Idx → EReal) y := by
  obtain ⟨e00, e01, e10, e11, e20, e21, e30, e31, e40, e41, e50, e51, e60, e61, e70, e71⟩ := idx_facts t
  show (V c (Pipeline.arrRef spec2 4) : Cert.Spec.SW.Idx → EReal) (((cfg2.win 4).blk t).view.emb y) = _
  refine congrArg (V c (Pipeline.arrRef spec2 4) : Cert.Spec.SW.Idx → EReal) (funext fun ax => Fin.ext ?_)
  match ax with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every point is its whole array. -/
theorem blk_whole5 (c : Dev nD) (t : Fin cfg2.N) (y : S128x128.Idx) :
    (Gen.iblk2 V c 5 t : Vec Ideal S128x128 .f32) y = (V c (Pipeline.arrRef spec2 5) : Cert.Spec.SW.Idx → EReal) y := by
  obtain ⟨e00, e01, e10, e11, e20, e21, e30, e31, e40, e41, e50, e51, e60, e61, e70, e71⟩ := idx_facts t
  show (V c (Pipeline.arrRef spec2 5) : Cert.Spec.SW.Idx → EReal) (((cfg2.win 5).blk t).view.emb y) = _
  refine congrArg (V c (Pipeline.arrRef spec2 5) : Cert.Spec.SW.Idx → EReal) (funext fun ax => Fin.ext ?_)
  match ax with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block at every point is its whole array. -/
theorem blk_whole6 (c : Dev nD) (t : Fin cfg2.N) (y : S1x128.Idx) :
    (Gen.iblk2 V c 6 t : Vec Ideal S1x128 .f32) y = (V c (Pipeline.arrRef spec2 6) : Cert.Spec.SB.Idx → EReal) y := by
  obtain ⟨e00, e01, e10, e11, e20, e21, e30, e31, e40, e41, e50, e51, e60, e61, e70, e71⟩ := idx_facts t
  show (V c (Pipeline.arrRef spec2 6) : Cert.Spec.SB.Idx → EReal) (((cfg2.win 6).blk t).view.emb y) = _
  refine congrArg (V c (Pipeline.arrRef spec2 6) : Cert.Spec.SB.Idx → EReal) (funext fun ax => Fin.ext ?_)
  match ax with
  | ⟨0, _⟩ => show win2_6.index t (0 : Fin 2) * 1 + 1 * (y 0).val = (y 0).val; omega
  | ⟨1, _⟩ => show win2_6.index t (1 : Fin 2) * 128 + 1 * (y 1).val = (y 1).val; omega

/-- The result block's place in the array: row 5000·t + the row inside the block, the same channel. -/
theorem emb7_row (t : Fin cfg2.N) (y : S5000x128.Idx) : ((((cfg2.win 7).blk t).view.emb y : S50000x128.Idx) 0).val = t.val * 5000 + (y 0).val := by
  obtain ⟨e00, e01, e10, e11, e20, e21, e30, e31, e40, e41, e50, e51, e60, e61, e70, e71⟩ := idx_facts t
  show win2_7.index t (0 : Fin 2) * 5000 + 1 * (y 0).val = _
  omega
theorem emb7_col (t : Fin cfg2.N) (y : S5000x128.Idx) : ((((cfg2.win 7).blk t).view.emb y : S50000x128.Idx) 1).val = (y 1).val := by
  obtain ⟨e00, e01, e10, e11, e20, e21, e30, e31, e40, e41, e50, e51, e60, e61, e70, e71⟩ := idx_facts t
  show win2_7.index t (1 : Fin 2) * 128 + 1 * (y 1).val = _
  omega

/-- What point t writes back is block t of the closing linear map. -/
theorem flushed_eq (c : Dev nD) (t : Fin cfg2.N) :
    (Gen.dat2 (F := Ideal) V c).flushed 7 t = ((cfg2.win 7).blk t).view.read (Elt Ideal) (G2 V c) := by
  show (cfg2.win 7).cut (grid2.coords t) ((Gen.dat2 (F := Ideal) V c).after 7 t) = _
  rw [Gen.after2_7]
  unfold Gen.out2_7
  rw [View.canon_unit_zero hz]
  simp only [View.ld_unit_zero (S := S5000x128) hz, View.ld_unit_zero (S := S1x128) hz, View.ld_unit_zero (S := S128x128) hz]
  funext j
  show Gen.k2_pay1 (Gen.iblk2 V c 1 t) (Gen.iblk2 V c 2 t) (Gen.iblk2 V c 3 t) (Gen.iblk2 V c 0 t) (Gen.iblk2 V c 4 t) (Gen.iblk2 V c 5 t) (Gen.iblk2 V c 6 t) j
    = G2 V c (((cfg2.win 7).blk t).view.emb j)
  exact pay_eq_lin (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))
    (Gen.iblk2 V c 1 t) (Gen.iblk2 V c 2 t) (Gen.iblk2 V c 3 t) (Gen.iblk2 V c 0 t) (Gen.iblk2 V c 4 t) (Gen.iblk2 V c 5 t) (Gen.iblk2 V c 6 t)
    (fun y => ((cfg2.win 7).blk t).view.emb y) (t.val * 5000) (emb7_row t) (emb7_col t)
    (blk_rows0 V c t) (blk_rows1 V c t) (blk_rows2 V c t) (blk_whole3 V c t) (blk_whole4 V c t) (blk_whole5 V c t) (blk_whole6 V c t) j

/-- An index of the array is in point t's block iff each coordinate is in the block's range on its axis. -/
theorem mem_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v72).slice (win2_7.rect t)).set ↔ _
  rw [View.set_slice_whole, Rect.mem_set_unit]
  exact Iff.rfl

/-- The ten row blocks tile the array: row r lies in block r / 5000. -/
theorem cover (i : S50000x128.Idx) :
    ∃ t : Fin cfg2.N, (cfg2.win 7).flush t = true ∧ i ∈ ((cfg2.win 7).blk t).view.set := by
  have hN : grid2.N = 10 := Gen.N_2
  have hi0 : (i 0).val < 50000 := (i 0).isLt
  have hi1 : (i 1).val < 128 := (i 1).isLt
  let t : Fin cfg2.N := ⟨(i 0).val / 5000, by show (i 0).val / 5000 < grid2.N; rw [hN]; omega⟩
  have ht : t.val = (i 0).val / 5000 := rfl
  obtain ⟨e00, e01, e10, e11, e20, e21, e30, e31, e40, e41, e50, e51, e60, e61, e70, e71⟩ := idx_facts t
  refine ⟨t, Gen.flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The result array after the ten points is the closing linear map of the arrays the region reads. -/
theorem final2_7 (c : Dev nD) :
    (Gen.dat2 (F := Ideal) V c).arrAt 7 cfg2.N
      = Cert.Spec.lin (V c (Pipeline.arrRef spec2 0))
          (Cert.Spec.act (V c (Pipeline.arrRef spec2 1)) (V c (Pipeline.arrRef spec2 2)) (V c (Pipeline.arrRef spec2 3)))
          (V c (Pipeline.arrRef spec2 4)) (V c (Pipeline.arrRef spec2 5)) (V c (Pipeline.arrRef spec2 6)) :=
  (Gen.dat2 (F := Ideal) V c).arrAt_eq_of_cover 7 (G2 V c) (fun t _ => flushed_eq V c t) cover

end Cert.KernelIdeal.Blocks2

end
-- ==== Proof.KernelValue.lean ====
/-
  The idealized kernel's result array as one function of the arguments. Region by region: the first region leaves
  h1 = x · W1; the second stretch of host operations turns it into the first layer's aggregate and self-loop term;
  the second region leaves the first layer's output x1 and h2 = x1 · W2; the third stretch turns h2 into the second
  layer's aggregate and self-loop term; the third region leaves x1 · Wlin[0:128] + x2 · Wlin[128:256] + blin.
-/
import proofs.«150803_j30777735643935_2_alg».proof.Proof.KernelHostRead
import proofs.«150803_j30777735643935_2_alg».proof.Proof.KSpec
import proofs.«150803_j30777735643935_2_alg».proof.Proof.Blocks01
import proofs.«150803_j30777735643935_2_alg».proof.Proof.Blocks2

set_option maxRecDepth 16384

noncomputable section

namespace Cert.KernelIdeal.KValue

open Cert.KernelIdeal Cert.KernelIdeal.Gen Cert.KernelIdeal.HostRead Idealize.ShloMosaic Idealize.ShloMosaic.TcCoe Idealize.SL.Sem

variable (m : (ℓ : Loc nD τ sig) → Buf (Elt Ideal) ℓ) (ρ : Dev nD → PrngReg) (c : Dev nD)

/-- After the first region its output array holds h1 = x · W1. -/
theorem w2_h1 : W2 m ρ c (Proc.devRef .tc main_v11)
    = Cert.Spec.mm (m ((c : Thread nD τ).loc main_arg0)) (m ((c : Thread nD τ).loc main_arg2)) := by
  refine (W2_arr m ρ c 2).trans ?_
  rw [Blocks01.final0_2 (V1 m ρ) c]
  show Cert.Spec.mm (W1 m ρ c (Proc.devRef .tc main_arg0)) (W1 m ρ c (Proc.devRef .tc main_arg2)) = _
  rw [w1_arg0, w1_arg2]

/-- After the second region its first output array holds the first layer's output. -/
theorem w4_x1 : W4 m ρ c (Proc.devRef .tc main_v40_0)
    = KSpec.layer (m ((c : Thread nD τ).loc main_arg0)) (ei m c) (m ((c : Thread nD τ).loc main_arg2)) (m ((c : Thread nD τ).loc main_arg3)) := by
  refine (W4_arr m ρ c 4).trans ?_
  rw [Blocks01.final1_4 (V3 m ρ) c]
  show Cert.Spec.act (W3 m ρ c (Proc.devRef .tc main_v38)) (W3 m ρ c (Proc.devRef .tc main_v17)) (W3 m ρ c (Proc.devRef .tc main_v39)) = _
  rw [w3_agg, w3_diag, w3_bias, w2_h1]
  rfl

/-- … and its second output array the product of that output with W2. -/
theorem w4_h2 : W4 m ρ c (Proc.devRef .tc main_v40_1)
    = Cert.Spec.mm (KSpec.layer (m ((c : Thread nD τ).loc main_arg0)) (ei m c) (m ((c : Thread nD τ).loc main_arg2)) (m ((c : Thread nD τ).loc main_arg3)))
        (m ((c : Thread nD τ).loc main_arg4)) := by
  refine (W4_arr m ρ c 5).trans ?_
  rw [Blocks01.final1_5 (V3 m ρ) c]
  show Cert.Spec.mm (Cert.Spec.act (W3 m ρ c (Proc.devRef .tc main_v38)) (W3 m ρ c (Proc.devRef .tc main_v17)) (W3 m ρ c (Proc.devRef .tc main_v39)))
      (W3 m ρ c (Proc.devRef .tc main_arg4)) = _
  rw [w3_agg, w3_diag, w3_bias, w2_h1, w3_arg4]
  rfl

/-- The result array after the run is the kernel's function of the arguments. -/
theorem result : W6 m ρ c (Proc.devRef .tc main_v72)
    = KSpec.out (m ((c : Thread nD τ).loc main_arg0)) (ei m c) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W6_arr m ρ c 7).trans ?_
  rw [Blocks2.final2_7 (V5 m ρ) c]
  show Cert.Spec.lin (W5 m ρ c (Proc.devRef .tc main_v40_0))
      (Cert.Spec.act (W5 m ρ c (Proc.devRef .tc main_v67)) (W5 m ρ c (Proc.devRef .tc main_v46)) (W5 m ρ c (Proc.devRef .tc main_v70)))
      (W5 m ρ c (Proc.devRef .tc main_v68)) (W5 m ρ c (Proc.devRef .tc main_v69)) (W5 m ρ c (Proc.devRef .tc main_v71)) = _
  rw [w5_x1, w5_agg, w5_diag, w5_bias, w5_wlin1, w5_wlin2, w5_biasLin, w4_x1, w4_h2]
  rfl

end Cert.KernelIdeal.KValue

end
-- ==== Proof.OpsAtGen.lean ====
/-
  The host's gather and scatter-add read at one index, for a graph with `N` nodes, `E` index words (one word per
  row of an `[E, 1]` array) and `C` channels, generic in the three sizes.

  A gather of node entries (or node rows) reads the operand at the node its word, read signed, is clamped to.
  A scatter-add leaves at a node the old entry plus the sum of the updates whose word, read signed and NOT clamped,
  equals that node's number: an update index lands at an operand index exactly when, on every axis, the start plus the
  window coordinate is that operand coordinate (`resultIdx?_eq_some_iff`); on the node axis the start is the word and the
  window coordinate is 0, on the channel axis the start is 0 and the window coordinate is the update's channel.
-/
import Idealize.ShloMosaic.PureOps.Ideal
import Idealize.ShloMosaic.Lib.ValueIdx

noncomputable section

open scoped BigOperators

namespace Cert.OpsAtGen

open Idealize.ShloMosaic Idealize.ShloMosaic.ValueIdx

/-! ## Gathers -/

section Gather
variable {α : Type}

/-- The dimension numbers of a gather of `E` entries of a vector `[N]` at start indices `[E, 1]`. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at entry `e`: the vector at the word `idx[e, 0]` read signed and clamped into `[0, N − 1]`. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0 + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a gather of `E` rows of an array `[N, C]` at start indices `[E, 1]`. -/
abbrev gDims2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather read at row `e`, channel `c`: the array at the word `idx[e, 0]` read signed and clamped into
    `[0, N − 1]`, channel `c`. -/
theorem gather2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gDims2 N E C wf) x idx (ix2 e c)
      = x (ix2 ⟨min (idx (ix2 e (0 : Fin 1))).toInt.toNat (N - 1), by omega⟩ c) := by
  have h0 : (gDims2 N E C wf).start (ix2 e c) idx (0 : Fin 2) + (gDims2 N E C wf).batchCoord (ix2 e c) (0 : Fin 2)
      + (gDims2 N E C wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C wf).startIndexMap from List.mem_singleton.mpr rfl)]
    have hsi : (gDims2 N E C wf).siIdx (ix2 e c) ⟨List.idxOf (0 : Fin 2) (gDims2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gDims2 N E C wf).start (ix2 e c) idx (1 : Fin 2) + (gDims2 N E C wf).batchCoord (ix2 e c) (1 : Fin 2)
      + (gDims2 N E C wf).offCoord (ix2 e c) (1 : Fin 2) = c.val := by
    have hst : (gDims2 N E C wf).start (ix2 e c) idx (1 : Fin 2) = 0 := by
      unfold GatherDims.start
      rw [dif_neg (show ¬ (1 : Fin 2) ∈ ([0] : List (Fin 2)) by decide)]
    have hoff : (gDims2 N E C wf).offCoord (ix2 e c) (1 : Fin 2) = c.val := by
      unfold GatherDims.offCoord
      rw [dif_pos ((GatherDims.mem_sKept _ _).2
        ⟨(show ¬ (1 : Fin 2) ∈ ([0] : List (Fin 2)) by decide), List.not_mem_nil⟩)]
      rfl
    rw [GatherDims.batchCoord_eq_zero _ _ _ List.not_mem_nil, hst, hoff]
    simp
  unfold Host.gather
  congr 1
  funext a
  refine Fin.ext ?_
  match a with
  | ⟨0, _⟩ => exact h0
  | ⟨1, _⟩ => exact h1

end Gather

/-! ## Scatter-adds -/

section Scatter

/-- An update index lands at the operand index `i` exactly when, on every axis, start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro H
      funext a
      refine Fin.ext ?_
      have := H a
      show (d.start j idx a + (d.window j a : Int)).toNat = (i a).val
      omega
  · rename_i h
    constructor
    · intro h'; cases h'
    · intro H
      exfalso
      apply h
      intro a
      have := H a
      have := (i a).isLt
      omega

/-- At the ideal instance a scatter-add at an index is the old entry plus the sum, over ALL update indices, of the
    update where it lands at that index and of zero where it does not. -/
theorem scatterAdd_apply {s si u : Shape} (d : ScatterDims s si u) {w : Nat} {φ : FTy} (x : s.Idx → EReal)
    (idx : IVec si w) (upd : u.Idx → EReal) (i : s.Idx) :
    Host.scatterAdd (F := Ideal) (φ := φ) d x idx upd i
      = x i + ∑ j : u.Idx, if d.resultIdx? j idx = some i then upd j else 0 := by
  show Ideal.hostScatterAdd d x idx upd i = _
  unfold Ideal.hostScatterAdd
  rw [Finset.sum_filter]

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of `E` scalar updates into a vector `[N]` at indices `[E, 1]`. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at node `i` exactly when its word, read signed, is `i`. -/
theorem sDims1_lands {N E w : Nat} (wf : ScatterDims.WF ⟨1, ![N]⟩ ⟨2, ![E, 1]⟩ ⟨1, ![E]⟩ [] [0] [0] 1)
    (idx : IVec ⟨2, ![E, 1]⟩ w) (e : Fin E) (i : Fin N) :
    (sDims1 N E wf).resultIdx? (ix1 e) idx = some (ix1 i) ↔ (idx (ix2 e (0 : Fin 1))).toInt = (i.val : Int) := by
  have hst : (sDims1 N E wf).start (ix1 e) idx (0 : Fin 1) = (idx (ix2 e (0 : Fin 1))).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (sDims1 N E wf).window (ix1 e) (0 : Fin 1) = 0 := by
    unfold ScatterDims.window
    rw [dif_neg (show ¬ (0 : Fin 1) ∈ (sDims1 N E wf).sKept by
      intro h
      have := (List.mem_filter.1 h).2
      simp at this)]
  rw [resultIdx?_eq_some_iff]
  constructor
  · intro H
    have this : (sDims1 N E wf).start (ix1 e) idx (0 : Fin 1) + ((sDims1 N E wf).window (ix1 e) (0 : Fin 1) : Int)
        = (i.val : Int) := H (0 : Fin 1)
    rw [hst, hwin] at this
    simpa using this
  · intro H a
    obtain rfl : a = 0 := Subsingleton.elim _ _
    show (sDims1 N E wf).start (ix1 e) idx (0 : Fin 1) + ((sDims1 N E wf).window (ix1 e) (0 : Fin 1) : Int) = (i.val : Int)
    rw [hst, hwin]
    simpa using H

/-- The scatter-add read at node `i`: the old entry plus the updates whose word, read signed, is `i`. -/
theorem scatter1_apply {N E w : Nat} {φ : FTy} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Host.scatterAdd (F := Ideal) (φ := φ) (sDims1 N E wf) x idx upd (ix1 i)
      = x (ix1 i) + ∑ e : Fin E, if (idx (ix2 e (0 : Fin 1))).toInt = (i.val : Int) then upd (ix1 e) else 0 := by
  classical
  rw [scatterAdd_apply, sum_idx1]
  congr 1
  refine Finset.sum_congr rfl fun e _ => ?_
  exact if_congr (sDims1_lands wf idx e i) rfl rfl

/-- The dimension numbers of a scatter of `E` update rows into an array `[N, C]` at indices `[E, 1]`. -/
abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, c')` lands at `(i, c)` exactly when the word of row `e`, read signed, is `i` and the channels agree. -/
theorem sDims2_lands {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (i : Fin N) (c : Fin C) :
    (sDims2 N E C wf).resultIdx? (ix2 e c') idx = some (ix2 i c)
      ↔ (idx (ix2 e (0 : Fin 1))).toInt = (i.val : Int) ∧ c' = c := by
  have hst0 : (sDims2 N E C wf).start (ix2 e c') idx (0 : Fin 2) = (idx (ix2 e (0 : Fin 1))).toInt := by
    unfold ScatterDims.start
    rw [dif_pos (show (0 : Fin 2) ∈ (sDims2 N E C wf).scatterDimsToOperandDims from List.mem_singleton.mpr rfl)]
    have hsi : (sDims2 N E C wf).siIdx (ix2 e c') ⟨List.idxOf (0 : Fin 2) (sDims2 N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (sDims2 N E C wf).window (ix2 e c') (0 : Fin 2) = 0 := by
    unfold ScatterDims.window
    rw [dif_neg (show ¬ (0 : Fin 2) ∈ (sDims2 N E C wf).sKept by
      intro h
      have := (List.mem_filter.1 h).2
      simp at this)]
  have hst1 : (sDims2 N E C wf).start (ix2 e c') idx (1 : Fin 2) = 0 := by
    unfold ScatterDims.start
    rw [dif_neg (show ¬ (1 : Fin 2) ∈ ([0] : List (Fin 2)) by decide)]
  have hwin1 : (sDims2 N E C wf).window (ix2 e c') (1 : Fin 2) = c'.val := by
    unfold ScatterDims.window
    rw [dif_pos (show (1 : Fin 2) ∈ (sDims2 N E C wf).sKept from
      List.mem_filter.2 ⟨List.mem_finRange _, by simp⟩)]
    rfl
  rw [resultIdx?_eq_some_iff]
  constructor
  · intro H
    have H0 : (sDims2 N E C wf).start (ix2 e c') idx (0 : Fin 2) + ((sDims2 N E C wf).window (ix2 e c') (0 : Fin 2) : Int)
        = (i.val : Int) := H (0 : Fin 2)
    have H1 : (sDims2 N E C wf).start (ix2 e c') idx (1 : Fin 2) + ((sDims2 N E C wf).window (ix2 e c') (1 : Fin 2) : Int)
        = (c.val : Int) := H (1 : Fin 2)
    rw [hst0, hwin0] at H0
    rw [hst1, hwin1] at H1
    refine ⟨by simpa using H0, Fin.ext ?_⟩
    have : (c'.val : Int) = (c.val : Int) := by simpa using H1
    exact_mod_cast this
  · rintro ⟨H, rfl⟩ a
    match a with
    | ⟨0, _⟩ =>
      show (sDims2 N E C wf).start (ix2 e c') idx (0 : Fin 2) + ((sDims2 N E C wf).window (ix2 e c') (0 : Fin 2) : Int) = (i.val : Int)
      rw [hst0, hwin0]; simpa using H
    | ⟨1, _⟩ =>
      show (sDims2 N E C wf).start (ix2 e c') idx (1 : Fin 2) + ((sDims2 N E C wf).window (ix2 e c') (1 : Fin 2) : Int) = (c'.val : Int)
      rw [hst1, hwin1]; simp

/-- The scatter-add read at node `i`, channel `c`: the old entry plus channel `c` of the update rows whose word, read
    signed, is `i`. -/
theorem scatter2_apply {N E C w : Nat} {φ : FTy}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (c : Fin C) :
    Host.scatterAdd (F := Ideal) (φ := φ) (sDims2 N E C wf) x idx upd (ix2 i c)
      = x (ix2 i c) + ∑ e : Fin E, if (idx (ix2 e (0 : Fin 1))).toInt = (i.val : Int) then upd (ix2 e c) else 0 := by
  classical
  rw [scatterAdd_apply, sum_idx2]
  congr 1
  refine Finset.sum_congr rfl fun e _ => ?_
  rw [Finset.sum_eq_single c]
  · exact if_congr ((sDims2_lands wf idx e c i c).trans (and_iff_left rfl)) rfl rfl
  · intro b _ hb
    exact if_neg fun h => hb ((sDims2_lands wf idx e b i c).1 h).2
  · intro h; exact absurd (Finset.mem_univ c) h

end Scatter

end Cert.OpsAtGen

end
-- ==== Proof.OpsAt.lean ====
/-
  The host's gather and scatter-add read at an index, for the shapes of a graph with 50000 nodes: a gather reads its
  operand at the node its index word is clamped to; a scatter-add leaves, at every node, the old entry plus the sum
  of the updates whose index word, read signed and not clamped, names that node (an update whose word names no node
  is dropped).
-/
import proofs.«150803_j30777735643935_2_alg».proof.Proof.Gen.KernelIdeal
import proofs.«150803_j30777735643935_2_alg».proof.Proof.Gen.ReferenceIdeal
import Idealize.ShloMosaic.PureOps.Ideal
import Idealize.ShloMosaic.Lib.ValueIdx
import proofs.«150803_j30777735643935_2_alg».proof.Proof.OpsAtGen

noncomputable section

open scoped BigOperators

namespace Cert.OpsAt

open Idealize.ShloMosaic Idealize.ShloMosaic.ValueIdx

/-- The node a word names when it is read signed and unchanged, if it names one: a scatter's target. -/
def node? (w : BitVec 32) : Option (Fin 50000) :=
  if h : 0 ≤ w.toInt ∧ w.toInt < 50000 then some ⟨w.toInt.toNat, by omega⟩ else none

/-- The node a word is clamped to when it is read signed: a negative word reads node 0, a word past the last node the
    last node. A gather's source. -/
def clampNode (w : BitVec 32) : Fin 50000 := ⟨min w.toInt.toNat 49999, by omega⟩

/-- A word names node `i` exactly when, read signed, it is `i`. -/
theorem node?_eq_some_iff (w : BitVec 32) (i : Fin 50000) : node? w = some i ↔ w.toInt = (i.val : Int) := by
  unfold node?
  split
  · rename_i h
    rw [Option.some.injEq, Fin.ext_iff]
    show w.toInt.toNat = i.val ↔ _
    omega
  · rename_i h
    constructor
    · intro h'; cases h'
    · intro H
      exfalso
      apply h
      have := i.isLt
      omega

section k
open Cert.KernelIdeal

/-- A scatter-add of 640000 scalar updates into a node vector, at node `i`: the old entry plus the updates whose word names `i`. -/
theorem k_scatter1 (x : S50000.Idx → EReal) (idx : IVec S640000x1 32) (u : S640000.Idx → EReal) (i : Fin 50000) :
    Host.scatterAdd (F := Ideal) (φ := .f32) scatter_S50000_S640000x1_S640000_n_0_0_1 x idx u (ix1 i)
      = x (ix1 i) + ∑ e : Fin 640000, if node? (idx (ix2 e (0 : Fin 1))) = some i then u (ix1 e) else 0 := by
  refine (OpsAtGen.scatter1_apply (N := 50000) (E := 640000) scatter_S50000_S640000x1_S640000_n_0_0_1.wf x idx u i).trans ?_
  refine congrArg (fun t => _ + t) (Finset.sum_congr rfl fun e _ => ?_)
  exact if_congr (node?_eq_some_iff _ i).symm rfl rfl

/-- A scatter-add of 640000 update rows into a node array, at node `i` and channel `c`: the old entry plus channel `c` of the
    rows whose word names `i`. -/
theorem k_scatter2 (x : S50000x128.Idx → EReal) (idx : IVec S640000x1 32) (u : S640000x128.Idx → EReal) (i : Fin 50000) (c : Fin 128) :
    Host.scatterAdd (F := Ideal) (φ := .f32) scatter_S50000x128_S640000x1_S640000x128_1_0_0_1 x idx u (ix2 i c)
      = x (ix2 i c) + ∑ e : Fin 640000, if node? (idx (ix2 e (0 : Fin 1))) = some i then u (ix2 e c) else 0 := by
  refine (OpsAtGen.scatter2_apply (N := 50000) (E := 640000) (C := 128) scatter_S50000x128_S640000x1_S640000x128_1_0_0_1.wf x idx u i c).trans ?_
  refine congrArg (fun t => _ + t) (Finset.sum_congr rfl fun e _ => ?_)
  exact if_congr (node?_eq_some_iff _ i).symm rfl rfl

/-- A gather of 640000 entries of a node vector: entry `e` is the vector at the node the word is clamped to. -/
theorem k_gather1 {α : Type} (x : S50000.Idx → α) (idx : IVec S640000x1 32) (e : Fin 640000) :
    Host.gather gather_S50000_S640000x1_S640000_n_0_n_n_0_1_1 x idx (ix1 e) = x (ix1 (clampNode (idx (ix2 e (0 : Fin 1))))) :=
  OpsAtGen.gather1_apply (N := 50000) (E := 640000) (by omega) gather_S50000_S640000x1_S640000_n_0_n_n_0_1_1.wf x idx e

/-- A gather of 640000 rows of a node array: row `e`, channel `c` is the array at the node the word is clamped to, channel `c`. -/
theorem k_gather2 {α : Type} (x : S50000x128.Idx → α) (idx : IVec S640000x1 32) (e : Fin 640000) (c : Fin 128) :
    Host.gather gather_S50000x128_S640000x1_S640000x128_1_0_n_n_0_1_1128 x idx (ix2 e c) = x (ix2 (clampNode (idx (ix2 e (0 : Fin 1)))) c) :=
  OpsAtGen.gather2_apply (N := 50000) (E := 640000) (C := 128) (by omega) gather_S50000x128_S640000x1_S640000x128_1_0_n_n_0_1_1128.wf x idx e c

end k

section r
open Cert.ReferenceIdeal

/-- A scatter-add of 690000 scalar updates into a node vector, at node `i`: the old entry plus the updates whose word names `i`. -/
theorem r_scatter1 (x : S50000.Idx → EReal) (idx : IVec S690000x1 32) (u : S690000.Idx → EReal) (i : Fin 50000) :
    Host.scatterAdd (F := Ideal) (φ := .f32) scatter_S50000_S690000x1_S690000_n_0_0_1 x idx u (ix1 i)
      = x (ix1 i) + ∑ e : Fin 690000, if node? (idx (ix2 e (0 : Fin 1))) = some i then u (ix1 e) else 0 := by
  refine (OpsAtGen.scatter1_apply (N := 50000) (E := 690000) scatter_S50000_S690000x1_S690000_n_0_0_1.wf x idx u i).trans ?_
  refine congrArg (fun t => _ + t) (Finset.sum_congr rfl fun e _ => ?_)
  exact if_congr (node?_eq_some_iff _ i).symm rfl rfl

/-- A scatter-add of 690000 update rows into a node array, at node `i` and channel `c`: the old entry plus channel `c` of the
    rows whose word names `i`. -/
theorem r_scatter2 (x : S50000x128.Idx → EReal) (idx : IVec S690000x1 32) (u : S690000x128.Idx → EReal) (i : Fin 50000) (c : Fin 128) :
    Host.scatterAdd (F := Ideal) (φ := .f32) scatter_S50000x128_S690000x1_S690000x128_1_0_0_1 x idx u (ix2 i c)
      = x (ix2 i c) + ∑ e : Fin 690000, if node? (idx (ix2 e (0 : Fin 1))) = some i then u (ix2 e c) else 0 := by
  refine (OpsAtGen.scatter2_apply (N := 50000) (E := 690000) (C := 128) scatter_S50000x128_S690000x1_S690000x128_1_0_0_1.wf x idx u i c).trans ?_
  refine congrArg (fun t => _ + t) (Finset.sum_congr rfl fun e _ => ?_)
  exact if_congr (node?_eq_some_iff _ i).symm rfl rfl

/-- A gather of 690000 entries of a node vector: entry `e` is the vector at the node the word is clamped to. -/
theorem r_gather1 {α : Type} (x : S50000.Idx → α) (idx : IVec S690000x1 32) (e : Fin 690000) :
    Host.gather gather_S50000_S690000x1_S690000_n_0_n_n_0_1_1 x idx (ix1 e) = x (ix1 (clampNode (idx (ix2 e (0 : Fin 1))))) :=
  OpsAtGen.gather1_apply (N := 50000) (E := 690000) (by omega) gather_S50000_S690000x1_S690000_n_0_n_n_0_1_1.wf x idx e

/-- A gather of 690000 rows of a node array: row `e`, channel `c` is the array at the node the word is clamped to, channel `c`. -/
theorem r_gather2 {α : Type} (x : S50000x128.Idx → α) (idx : IVec S690000x1 32) (e : Fin 690000) (c : Fin 128) :
    Host.gather gather_S50000x128_S690000x1_S690000x128_1_0_n_n_0_1_1128 x idx (ix2 e c) = x (ix2 (clampNode (idx (ix2 e (0 : Fin 1)))) c) :=
  OpsAtGen.gather2_apply (N := 50000) (E := 690000) (C := 128) (by omega) gather_S50000x128_S690000x1_S690000x128_1_0_n_n_0_1_1128.wf x idx e c

end r

end Cert.OpsAt

end
-- ==== Proof.LayerSplit.lean ====
/-
  Splitting a sum over the 690000 entries of an edge list with the self-loops appended: the first 640000 entries are
  the edges, the last 50000 the self-loops, one per node. The word of the self-loop of node i is the number i written
  on 32 bits; read as a signed word it is i again (i < 50000 < 2^31), so it names node i, is not negative, and is
  clamped to node i. In a sum over the self-loops of the terms whose word names node i, exactly the term of the
  self-loop of i remains.
-/
import proofs.«150803_j30777735643935_2_alg».proof.Proof.OpsAt
import Mathlib.Algebra.BigOperators.Fin
import Idealize.ShloMosaic.Lib.ValueIdx
import Idealize.ShloMosaic.PureOps.Ideal.Laws

noncomputable section

open scoped BigOperators

namespace Cert.Layer

open Idealize.ShloMosaic Idealize.ShloMosaic.ValueIdx Cert.OpsAt

/-- The float literal zero, as an extended real. -/
abbrev Z : EReal := Ideal.ofBits .f32 0x00000000#32
/-- The float literal one, as an extended real. -/
abbrev One : EReal := Ideal.ofBits .f32 0x3F800000#32

/-- The literal zero is the number zero. -/
theorem Z_eq : Z = 0 := by simp [Ideal.ofBits, Ideal.ieee]
/-- The literal one is the number one. -/
theorem One_eq : One = 1 := by simp [Ideal.ofBits, Ideal.ieee, -EReal.coe_mul]; norm_num

/-- An index of a vector is determined by its coordinate. -/
theorem idx1_eq {n : Nat} (k : (⟨1, ![n]⟩ : Shape).Idx) (j : Fin n) (h : (k 0).val = j.val) : k = ix1 j := by
  funext d
  match d with
  | ⟨0, _⟩ => exact Fin.ext h

/-- An index of a matrix is determined by its two coordinates. -/
theorem idx2_eq {n m : Nat} (k : (⟨2, ![n, m]⟩ : Shape).Idx) (a : Fin n) (b : Fin m) (h0 : (k 0).val = a.val)
    (h1 : (k 1).val = b.val) : k = ix2 a b := by
  funext d
  match d with
  | ⟨0, _⟩ => exact Fin.ext h0
  | ⟨1, _⟩ => exact Fin.ext h1

/-- The position of edge `e` in the extended edge list. -/
def eL (e : Fin 640000) : Fin 690000 := ⟨e.val, by have := e.isLt; omega⟩
/-- The position of the self-loop of node `i` in the extended edge list. -/
def eR (i : Fin 50000) : Fin 690000 := ⟨640000 + i.val, by have := i.isLt; omega⟩

/-- A sum over the extended edge list is the sum over the edges plus the sum over the self-loops. -/
theorem sum_split {M : Type} [AddCommMonoid M] (f : Fin 690000 → M) :
    ∑ j : Fin 690000, f j = ∑ e : Fin 640000, f (eL e) + ∑ i : Fin 50000, f (eR i) :=
  Fin.sum_univ_add (a := 640000) (b := 50000) f

/-- The word of node `i`: the number i on 32 bits. -/
def iw (i : Fin 50000) : BitVec 32 := BitVec.ofNat 32 i.val

/-- Read as a signed word, the word of node `i` is i. -/
theorem toInt_iw (i : Fin 50000) : (iw i).toInt = (i.val : Int) := by
  have h := i.isLt
  unfold iw
  rw [BitVec.toInt_eq_toNat_cond, BitVec.toNat_ofNat]
  have e : i.val % 2 ^ 32 = i.val := Nat.mod_eq_of_lt (by omega)
  rw [e]
  split <;> omega

/-- The word of node `i` names node `i`. -/
theorem node?_iw (i : Fin 50000) : node? (iw i) = some i := by
  have h := i.isLt
  have t := toInt_iw i
  unfold node?
  rw [dif_pos (by omega)]
  exact congrArg some (Fin.ext (by show (iw i).toInt.toNat = i.val; omega))

/-- The word of node `i` is clamped to node `i`. -/
theorem clampNode_iw (i : Fin 50000) : clampNode (iw i) = i := by
  have h := i.isLt
  have t := toInt_iw i
  unfold clampNode
  exact Fin.ext (by show min (iw i).toInt.toNat 49999 = i.val; omega)

/-- A word as an array index: a negative word has the number of nodes added. -/
def wrapW (w : BitVec 32) : BitVec 32 := Scalar.select (IntOp.cmpi .slt w 0#32) (IntOp.addi w 50000#32) w

/-- The word of a node is not negative, so it is its own array index. -/
theorem wrapW_iw (i : Fin 50000) : wrapW (iw i) = iw i := by
  have t := toInt_iw i
  have hs : BitVec.slt (iw i) 0#32 = false := by
    rw [BitVec.slt, t]
    simp
  unfold wrapW IntOp.cmpi
  show Scalar.select (BitVec.ofBool (BitVec.slt (iw i) 0#32)) _ _ = _
  rw [hs]
  rfl

/-- Among the self-loops, the one whose word names node `i` is the self-loop of `i`. -/
theorem sum_loops {M : Type} [AddCommMonoid M] (i : Fin 50000) (g : Fin 50000 → M) :
    (∑ i' : Fin 50000, if node? (iw i') = some i then g i' else 0) = g i := by
  have e : ∀ i' : Fin 50000, (if node? (iw i') = some i then g i' else 0) = if i' = i then g i' else 0 := fun i' => by
    rw [node?_iw]
    by_cases hh : i' = i
    · rw [if_pos hh, if_pos (congrArg some hh)]
    · rw [if_neg hh, if_neg (fun q => hh (Option.some.inj q))]
  rw [Finset.sum_congr rfl (fun i' _ => e i'), Finset.sum_ite_eq' Finset.univ i g, if_pos (Finset.mem_univ i)]

end Cert.Layer

end
-- ==== Proof.LayerK.lean ====
/-
  The kernel's edge stage read at an index: the degree of a node, the scaled features, the self-loop term, the message
  of an edge and the aggregate at a node, each as a formula in the entries of the arrays it is made from.
-/
import proofs.«150803_j30777735643935_2_alg».proof.Proof.KHost
import proofs.«150803_j30777735643935_2_alg».proof.Proof.OpsAt
import proofs.«150803_j30777735643935_2_alg».proof.Proof.LayerSplit
import Idealize.ShloMosaic.Lib.Pipeline.Value
import Idealize.ShloMosaic.Lib.ValueIdx
import Idealize.ShloMosaic.PureOps.Ideal.Laws

noncomputable section

open scoped BigOperators

namespace Cert.Layer

open Idealize.ShloMosaic Idealize.ShloMosaic.ValueIdx Cert.OpsAt
open Cert.KernelIdeal Cert.KernelIdeal.Gen Cert.KernelIdeal.KHost

/-- A vector spread into a one-column matrix, at row `e`. -/
theorem kcol_edge {α : Type} (v : S640000.Idx → α) (e : Fin 640000) :
    broadcastInDim S640000x1 ![0] bcast_S640000_S640000x1_0 v (ix2 e (0 : Fin 1)) = v (ix1 e) :=
  broadcastInDim_apply _ bcast_S640000_S640000x1_0 v _ (ix1 e) (fun a => match a with
    | ⟨0, _⟩ => by show e.val = if (640000 : Nat) = 1 then 0 else e.val; rw [if_neg (by decide)])

theorem kcol_node {α : Type} (v : S50000.Idx → α) (i : Fin 50000) :
    broadcastInDim S50000x1 ![0] bcast_S50000_S50000x1_0 v (ix2 i (0 : Fin 1)) = v (ix1 i) :=
  broadcastInDim_apply _ bcast_S50000_S50000x1_0 v _ (ix1 i) (fun a => match a with
    | ⟨0, _⟩ => by show i.val = if (50000 : Nat) = 1 then 0 else i.val; rw [if_neg (by decide)])

/-- A one-column matrix spread along the channels, at row `e` and channel `c`. -/
theorem kspread_edge {α : Type} (v : S640000x1.Idx → α) (e : Fin 640000) (c : Fin 128) :
    broadcastInDim S640000x128 ![0, 1] bcast_S640000x1_S640000x128_0_1 v (ix2 e c) = v (ix2 e (0 : Fin 1)) :=
  broadcastInDim_apply _ bcast_S640000x1_S640000x128_0_1 v _ (ix2 e (0 : Fin 1)) (fun a => match a with
    | ⟨0, _⟩ => by show e.val = if (640000 : Nat) = 1 then 0 else e.val; rw [if_neg (by decide)]
    | ⟨1, _⟩ => by show 0 = if (1 : Nat) = 1 then 0 else c.val; rw [if_pos rfl])

theorem kspread_node {α : Type} (v : S50000x1.Idx → α) (i : Fin 50000) (c : Fin 128) :
    broadcastInDim S50000x128 ![0, 1] bcast_S50000x1_S50000x128_0_1 v (ix2 i c) = v (ix2 i (0 : Fin 1)) :=
  broadcastInDim_apply _ bcast_S50000x1_S50000x128_0_1 v _ (ix2 i (0 : Fin 1)) (fun a => match a with
    | ⟨0, _⟩ => by show i.val = if (50000 : Nat) = 1 then 0 else i.val; rw [if_neg (by decide)]
    | ⟨1, _⟩ => by show 0 = if (1 : Nat) = 1 then 0 else c.val; rw [if_pos rfl])

/-- The array index of the word of edge `e`. -/
theorem wrap_apply (v : IVec S640000 32) (e : Fin 640000) : wrap v (ix1 e) = wrapW (v (ix1 e)) := rfl

/-- The degree of node `i`: the edges whose destination word names `i`, plus one. -/
theorem deg_apply (ei : IVec S2x640000 32) (i : Fin 50000) :
    deg ei (ix1 i) = (Z + ∑ e : Fin 640000, if node? (dst ei (ix1 e)) = some i then One else 0) + One := by
  unfold deg
  refine (addf_apply _ _ _).trans ?_
  refine congrArg (· + One) ?_
  refine (k_scatter1 _ _ _ i).trans ?_
  refine congrArg (Z + ·) ?_
  refine Finset.sum_congr rfl fun e _ => ?_
  rw [kcol_edge]
  rfl

theorem dinvCols_apply (ei : IVec S2x640000 32) (i : Fin 50000) (c : Fin 128) :
    dinvCols ei (ix2 i c) = dinv ei (ix1 i) := by
  unfold dinvCols
  rw [kspread_node, kcol_node]

/-- The scaled features at node `i`, channel `c`. -/
theorem hs_apply (h : FVec Ideal S50000x128 .f32) (ei : IVec S2x640000 32) (i : Fin 50000) (c : Fin 128) :
    hs h ei (ix2 i c) = h (ix2 i c) * dinv ei (ix1 i) := by
  unfold hs
  rw [mulf_apply, dinvCols_apply]

/-- The self-loop term at node `i`, channel `c`. -/
theorem diag_apply (h : FVec Ideal S50000x128 .f32) (ei : IVec S2x640000 32) (i : Fin 50000) (c : Fin 128) :
    diag h ei (ix2 i c) = (h (ix2 i c) * dinv ei (ix1 i)) * dinv ei (ix1 i) := by
  unfold diag
  rw [mulf_apply, dinvCols_apply, hs_apply]

/-- The message of edge `e` on channel `c`: the scaled features at its source node times the scale of its
    destination node. -/
theorem msg_apply (h : FVec Ideal S50000x128 .f32) (ei : IVec S2x640000 32) (e : Fin 640000) (c : Fin 128) :
    msg h ei (ix2 e c)
      = (h (ix2 (clampNode (wrapW (src ei (ix1 e)))) c) * dinv ei (ix1 (clampNode (wrapW (src ei (ix1 e))))))
          * dinv ei (ix1 (clampNode (wrapW (dst ei (ix1 e))))) := by
  unfold msg
  rw [mulf_apply, extf_apply, k_gather2, truncf_apply, hs_apply, kcol_edge, wrap_apply, kspread_edge, kcol_edge,
    k_gather1, kcol_edge, wrap_apply]

/-- The aggregate at node `i`, channel `c`: the messages of the edges whose destination word names `i`. -/
theorem agg_apply (h : FVec Ideal S50000x128 .f32) (ei : IVec S2x640000 32) (i : Fin 50000) (c : Fin 128) :
    agg h ei (ix2 i c) = Z + ∑ e : Fin 640000, if node? (dst ei (ix1 e)) = some i then msg h ei (ix2 e c) else 0 := by
  unfold agg
  refine (k_scatter2 _ _ _ i c).trans ?_
  refine congrArg (Z + ·) ?_
  refine Finset.sum_congr rfl fun e _ => ?_
  rw [kcol_edge]

end Cert.Layer

end
-- ==== Proof.LayerR.lean ====
/-
  The reference's graph-convolution layer read at an index. The reference appends one self-loop per node to the edge
  list; every sum over the extended list is split into its edge part and its self-loop part, and the self-loop part is
  the one term of the node's own self-loop. The edge words are the kernel's source and destination words.
-/
import proofs.«150803_j30777735643935_2_alg».proof.Proof.RefRead
import proofs.«150803_j30777735643935_2_alg».proof.Proof.KHost
import proofs.«150803_j30777735643935_2_alg».proof.Proof.OpsAt
import proofs.«150803_j30777735643935_2_alg».proof.Proof.LayerSplit
import Idealize.ShloMosaic.Lib.Pipeline.Value
import Idealize.ShloMosaic.Lib.ValueIdx
import Idealize.ShloMosaic.PureOps.Ideal.Laws

noncomputable section

open scoped BigOperators

namespace Cert.Layer

open Idealize.ShloMosaic Idealize.ShloMosaic.ValueIdx Cert.OpsAt
open Cert.ReferenceIdeal Cert.ReferenceIdeal.Gen Cert.ReferenceIdeal.ReadP

/-- The extended list (a list of 640000 words, then one word per node) at the position of an edge. -/
theorem cat_left {α : Type} (a : S640000.Idx → α) (b : S50000.Idx → α) (e : Fin 640000) :
    concatenate S690000 0 [⟨S640000, a⟩, ⟨S50000, b⟩] concatenates_S640000_S50000_S690000_d0 (ix1 (eL e)) = a (ix1 e) :=
  concatenate_pair_apply_left (0 : Fin S690000.rank) a b concatenates_S640000_S50000_S690000_d0 (ix1 (eL e)) rfl (ix1 e)
    (fun b => match b with | ⟨0, _⟩ => rfl)

/-- The extended list at the position of a self-loop. -/
theorem cat_right {α : Type} (a : S640000.Idx → α) (b : S50000.Idx → α) (i : Fin 50000) :
    concatenate S690000 0 [⟨S640000, a⟩, ⟨S50000, b⟩] concatenates_S640000_S50000_S690000_d0 (ix1 (eR i)) = b (ix1 i) :=
  concatenate_pair_apply_right (0 : Fin S690000.rank) a b concatenates_S640000_S50000_S690000_d0 (ix1 (eR i)) rfl rfl (ix1 i)
    (fun b => match b with | ⟨0, _⟩ => fun hb => absurd rfl hb)
    (by show i.val + 640000 = 640000 + i.val; omega)

/-- The reference's source words of the edges are the kernel's. -/
theorem v2_eq_src (ei : IVec S2x640000 32) : val_main_v2 (F := Ideal) ei = Cert.KernelIdeal.KHost.src ei := rfl
/-- The reference's destination words of the edges are the kernel's. -/
theorem v5_eq_dst (ei : IVec S2x640000 32) : val_main_v5 (F := Ideal) ei = Cert.KernelIdeal.KHost.dst ei := rfl

theorem srcR_edge (ei : IVec S2x640000 32) (e : Fin 640000) :
    val_main_v3 (F := Ideal) ei (ix1 (eL e)) = Cert.KernelIdeal.KHost.src ei (ix1 e) := by
  unfold val_main_v3
  exact (cat_left _ _ e).trans (congrFun (v2_eq_src ei) _)
theorem srcR_loop (ei : IVec S2x640000 32) (i : Fin 50000) : val_main_v3 (F := Ideal) ei (ix1 (eR i)) = iw i := by
  unfold val_main_v3
  exact (cat_right _ _ i).trans rfl
theorem dstR_edge (ei : IVec S2x640000 32) (e : Fin 640000) :
    val_main_v6 (F := Ideal) ei (ix1 (eL e)) = Cert.KernelIdeal.KHost.dst ei (ix1 e) := by
  unfold val_main_v6
  exact (cat_left _ _ e).trans (congrFun (v5_eq_dst ei) _)
theorem dstR_loop (ei : IVec S2x640000 32) (i : Fin 50000) : val_main_v6 (F := Ideal) ei (ix1 (eR i)) = iw i := by
  unfold val_main_v6
  exact (cat_right _ _ i).trans rfl

/-- The reference's degree of node `i`, before the split: the entries of the extended list whose destination word
    names `i`. -/
theorem degR_sum (ei : IVec S2x640000 32) (i : Fin 50000) :
    val_main_v10 (F := Ideal) ei (ix1 i)
      = Z + ∑ j : Fin 690000, if node? (val_main_v6 (F := Ideal) ei (ix1 j)) = some i then One else 0 := by
  unfold val_main_v10
  refine (r_scatter1 _ _ _ i).trans ?_
  refine congr (congrArg HAdd.hAdd ?_) (Finset.sum_congr rfl fun j _ => ?_)
  · rw [val_main_v8_apply, val_main_cst_0_apply]; rfl
  · rw [val_main_v9_apply, idx1_eq (idx_main_v9 (ix2 j (0 : Fin 1))) j rfl, val_main_v7_apply, val_main_cst_apply]
    rfl

/-- The reference's degree of node `i`: the edges whose destination word names `i`, plus one. -/
theorem degR_apply (ei : IVec S2x640000 32) (i : Fin 50000) :
    val_main_v10 (F := Ideal) ei (ix1 i)
      = (Z + ∑ e : Fin 640000, if node? (Cert.KernelIdeal.KHost.dst ei (ix1 e)) = some i then One else 0) + One := by
  rw [degR_sum, sum_split]
  simp only [dstR_edge, dstR_loop]
  rw [sum_loops i (fun _ => One), add_assoc]

/-- A degree is positive. -/
theorem degR_pos (ei : IVec S2x640000 32) (i : Fin 50000) : Z < val_main_v10 (F := Ideal) ei (ix1 i) := by
  rw [degR_apply, Z_eq, One_eq, zero_add]
  have hA : (0 : EReal) ≤ ∑ e : Fin 640000, if node? (Cert.KernelIdeal.KHost.dst ei (ix1 e)) = some i then (1 : EReal) else 0 :=
    Finset.sum_nonneg fun e _ => by
      split
      · exact zero_le_one
      · exact le_refl 0
  exact lt_of_lt_of_le zero_lt_one (le_add_of_nonneg_left hA)

/-- The reference's guarded inverse square root of the degree is the plain one. -/
theorem dinvR_apply (ei : IVec S2x640000 32) (i : Fin 50000) :
    val_main_v14 (F := Ideal) ei (ix1 i)
      = FloatOps.hostUnary (F := Ideal) (φ := .f32) .rsqrt (val_main_v10 (F := Ideal) ei (ix1 i)) := by
  have hp := degR_pos ei i
  have hc : val_main_v12 (F := Ideal) ei (ix1 i) = 1#1 := by
    rw [val_main_v12_apply, val_main_v11_apply, val_main_cst_1_apply, Ideal.cmpf_def]
    show BitVec.ofBool (decide (Z < val_main_v10 (F := Ideal) ei (ix1 i))) = 1#1
    rw [decide_eq_true hp]
    rfl
  rw [val_main_v14_apply, hc, select_one, val_main_v13_apply]

/-- The array index of an entry of the extended source list. -/
theorem v19_at (ei : IVec S2x640000 32) (j : Fin 690000) :
    val_main_v19 (F := Ideal) ei (ix1 j) = wrapW (val_main_v3 (F := Ideal) ei (ix1 j)) := by
  rw [val_main_v19_apply, val_main_v16_apply, val_main_v18_apply, val_main_v15_apply, val_main_v17_apply, val_main_c_apply,
    val_main_c_3_apply]
  rfl
theorem v26_at (ei : IVec S2x640000 32) (j : Fin 690000) :
    val_main_v26 (F := Ideal) ei (ix1 j) = wrapW (val_main_v6 (F := Ideal) ei (ix1 j)) := by
  rw [val_main_v26_apply, val_main_v23_apply, val_main_v25_apply, val_main_v22_apply, val_main_v24_apply, val_main_c_4_apply,
    val_main_c_5_apply]
  rfl
theorem v35_at (ei : IVec S2x640000 32) (j : Fin 690000) :
    val_main_v35 (F := Ideal) ei (ix1 j) = wrapW (val_main_v3 (F := Ideal) ei (ix1 j)) := by
  rw [val_main_v35_apply, val_main_v32_apply, val_main_v34_apply, val_main_v31_apply, val_main_v33_apply, val_main_c_6_apply,
    val_main_c_7_apply]
  rfl

/-- The scale of the source node of entry `j` of the extended list. -/
theorem v21_at (ei : IVec S2x640000 32) (j : Fin 690000) :
    val_main_v21 (F := Ideal) ei (ix1 j)
      = val_main_v14 (F := Ideal) ei (ix1 (clampNode (wrapW (val_main_v3 (F := Ideal) ei (ix1 j))))) := by
  unfold val_main_v21
  rw [r_gather1, val_main_v20_apply, idx1_eq (idx_main_v20 (ix2 j (0 : Fin 1))) j rfl, v19_at]
/-- The scale of the destination node of entry `j` of the extended list. -/
theorem v28_at (ei : IVec S2x640000 32) (j : Fin 690000) :
    val_main_v28 (F := Ideal) ei (ix1 j)
      = val_main_v14 (F := Ideal) ei (ix1 (clampNode (wrapW (val_main_v6 (F := Ideal) ei (ix1 j))))) := by
  unfold val_main_v28
  rw [r_gather1, val_main_v27_apply, idx1_eq (idx_main_v27 (ix2 j (0 : Fin 1))) j rfl, v26_at]

/-- The message of entry `j` of the extended list on channel `c`. -/
theorem v40_at (X : S50000x128.Idx → EReal) (ei : IVec S2x640000 32) (W : S128x128.Idx → EReal) (j : Fin 690000) (c : Fin 128) :
    val_main_v40 (F := Ideal) X ei W (ix2 j c)
      = val_main_v30 (F := Ideal) X W (ix2 (clampNode (wrapW (val_main_v3 (F := Ideal) ei (ix1 j)))) c)
          * (val_main_v14 (F := Ideal) ei (ix1 (clampNode (wrapW (val_main_v3 (F := Ideal) ei (ix1 j)))))
            * val_main_v14 (F := Ideal) ei (ix1 (clampNode (wrapW (val_main_v6 (F := Ideal) ei (ix1 j)))))) := by
  rw [val_main_v40_apply, val_main_v39_apply, val_main_v38_apply,
    idx1_eq (idx_main_v38 (idx_main_v39 (ix2 j c))) j rfl, val_main_v29_apply, v21_at, v28_at]
  unfold val_main_v37
  rw [r_gather2, val_main_v36_apply, idx1_eq (idx_main_v36 (ix2 j (0 : Fin 1))) j rfl, v35_at]
  rfl

/-- The reference's aggregate at node `i`, channel `c`, before the split. -/
theorem v43_sum (X : S50000x128.Idx → EReal) (ei : IVec S2x640000 32) (W : S128x128.Idx → EReal) (i : Fin 50000) (c : Fin 128) :
    val_main_v43 (F := Ideal) X ei W (ix2 i c)
      = Z + ∑ j : Fin 690000, if node? (val_main_v6 (F := Ideal) ei (ix1 j)) = some i
          then val_main_v40 (F := Ideal) X ei W (ix2 j c) else 0 := by
  unfold val_main_v43
  refine (r_scatter2 _ _ _ i c).trans ?_
  refine congr (congrArg HAdd.hAdd ?_) (Finset.sum_congr rfl fun j _ => ?_)
  · rw [val_main_v41_apply, val_main_cst_8_apply]; rfl
  · rw [val_main_v42_apply, idx1_eq (idx_main_v42 (ix2 j (0 : Fin 1))) j rfl]

end Cert.Layer

end
-- ==== Proof.Layer.lean ====
/-
  One graph-convolution layer of the reference is the kernel's restructured layer, as functions on the extended reals.
  The reference normalises every entry of the extended edge list (edges, then one self-loop per node) by the product
  of the inverse square roots of the degrees of its two ends, and adds the entries up at their destination nodes. The
  kernel scales the features by the inverse square root at the source first, adds up the edges only, scaling by the
  inverse square root at the destination, and adds the self-loop term separately. The two agree because the degrees
  agree, the self-loop part of the reference's sum is the kernel's self-loop term, and sums and products of extended
  reals are associative.
-/
import proofs.«150803_j30777735643935_2_alg».proof.Proof.LayerK
import proofs.«150803_j30777735643935_2_alg».proof.Proof.LayerR
import proofs.«150803_j30777735643935_2_alg».proof.Proof.Spec

noncomputable section

open scoped BigOperators

namespace Cert.Layer

open Idealize.ShloMosaic Idealize.ShloMosaic.ValueIdx Cert.OpsAt
open Cert.ReferenceIdeal Cert.ReferenceIdeal.ReadP

/-- The reference's transformed features are the product of the node array with the weights. -/
theorem v30_eq_mm (X : S50000x128.Idx → EReal) (W : S128x128.Idx → EReal) :
    val_main_v30 (F := Ideal) X W = Cert.Spec.mm X W := by
  funext j
  rw [val_main_v30_apply]
  unfold Cert.Spec.mm
  refine Finset.sum_congr rfl fun k _ => ?_
  rw [idx2_eq (lidx_main_v30 j k) (Cert.Spec.row j) k rfl rfl, idx2_eq (ridx_main_v30 j k) k (Cert.Spec.col j) rfl rfl]

/-- The two degrees agree. -/
theorem deg_eq (ei : IVec S2x640000 32) : val_main_v10 (F := Ideal) ei = Cert.KernelIdeal.KHost.deg ei := by
  funext j
  obtain ⟨i, rfl⟩ : ∃ i : Fin 50000, j = ix1 i := ⟨j 0, eq_ix1 j⟩
  rw [degR_apply, deg_apply]

/-- The two inverse square roots of the degrees agree. -/
theorem dinv_eq (ei : IVec S2x640000 32) : val_main_v14 (F := Ideal) ei = Cert.KernelIdeal.KHost.dinv ei := by
  funext j
  obtain ⟨i, rfl⟩ : ∃ i : Fin 50000, j = ix1 i := ⟨j 0, eq_ix1 j⟩
  rw [dinvR_apply, deg_eq]
  rfl

/-- The reference's aggregate is the kernel's aggregate over the edges plus the kernel's self-loop term. -/
theorem v43_apply (X : S50000x128.Idx → EReal) (ei : IVec S2x640000 32) (W : S128x128.Idx → EReal) (i : Fin 50000) (c : Fin 128) :
    val_main_v43 (F := Ideal) X ei W (ix2 i c)
      = Cert.KernelIdeal.KHost.agg (Cert.Spec.mm X W) ei (ix2 i c) + Cert.KernelIdeal.KHost.diag (Cert.Spec.mm X W) ei (ix2 i c) := by
  rw [v43_sum, sum_split]
  simp only [dstR_edge, dstR_loop, v40_at, srcR_edge, srcR_loop, wrapW_iw, clampNode_iw, dinv_eq, v30_eq_mm]
  rw [sum_loops i, agg_apply, diag_apply, ← add_assoc]
  simp only [msg_apply, mul_assoc]

/-- The bias row, reshaped to one row of 128 channels, at channel `c`. -/
theorem bias_at (b : S128.Idx → EReal) (c : Fin 128) :
    shapeCast Cert.KernelIdeal.S1x128 b Cert.KernelIdeal.Gen.shapeCasts_S128_S1x128 (ix2 (0 : Fin 1) c) = b (ix1 c) :=
  shapeCast_apply b Cert.KernelIdeal.Gen.shapeCasts_S128_S1x128 (ix2 (0 : Fin 1) c) (ix1 c)
    (by rw [Shape.rowMajor_val_two, Shape.rowMajor_val_one]; show c.val = 0 * 128 + c.val; omega)

/-- One layer of the reference is the kernel's layer. -/
theorem layer_eq (X : Cert.ReferenceIdeal.S50000x128.Idx → EReal) (ei : IVec Cert.ReferenceIdeal.S2x640000 32)
    (W : Cert.ReferenceIdeal.S128x128.Idx → EReal) (b : Cert.ReferenceIdeal.S128.Idx → EReal) :
    Cert.ReferenceIdeal.ReadP.val_main_v47 (F := Ideal) X ei W b
      = Cert.Spec.act (Cert.KernelIdeal.KHost.agg (Cert.Spec.mm X W) ei) (Cert.KernelIdeal.KHost.diag (Cert.Spec.mm X W) ei)
          (shapeCast Cert.KernelIdeal.S1x128 b Cert.KernelIdeal.Gen.shapeCasts_S128_S1x128) := by
  funext j
  obtain ⟨i, c, rfl⟩ : ∃ (i : Fin 50000) (c : Fin 128), j = ix2 i c := ⟨j 0, j 1, eq_ix2 j⟩
  rw [val_main_v47_apply, val_main_v46_apply, val_main_call1_v0_apply, val_main_call1_cst_apply, v43_apply, val_main_v45_apply,
    val_main_v44_apply, idx1_eq (idx_main_v44 (idx_main_v45 (ix2 i c))) c rfl]
  unfold Cert.Spec.act
  show FloatOps.maximumf (F := Ideal) (φ := .f32) _ _ = FloatOps.maximumf (F := Ideal) (φ := .f32) (_ + shapeCast Cert.KernelIdeal.S1x128 b Cert.KernelIdeal.Gen.shapeCasts_S128_S1x128 (ix2 (0 : Fin 1) c)) _
  rw [bias_at]
  rfl

end Cert.Layer

end
-- ==== Proof.Blocks2Lin.lean ====
/-
  The closing linear map of the reference, read at one entry: the product of the 256-channel concatenation
  [x1 | x2] with the stacked 256 × 128 weights, plus the bias row broadcast down the nodes, is
  x1 · (rows 0..127 of the weights) + x2 · (rows 128..255 of the weights) + bias.
  Entry (r, c) of the left side is the sum over k < 256 of [x1 | x2][r, k] · w[k, c], plus b[c]; the concatenation
  reads x1[r, k] for k < 128 and x2[r, k − 128] otherwise, so the sum over 256 = 128 + 128 splits into the two
  sums over 128 of the specification's products with the two slices of the weights.
-/
import proofs.«150803_j30777735643935_2_alg».proof.Proof.Gen.ReferenceIdeal
import proofs.«150803_j30777735643935_2_alg».proof.Proof.Gen.KernelIdeal
import proofs.«150803_j30777735643935_2_alg».proof.Proof.Spec
import Idealize.ShloMosaic.Lib.Pipeline.Value
import Idealize.ShloMosaic.Lib.ValueIdx
import Idealize.ShloMosaic.PureOps.Ideal.Laws

noncomputable section

open scoped BigOperators

namespace Cert.RefLin

open Idealize.ShloMosaic Idealize.ShloMosaic.ValueIdx
open Cert.ReferenceIdeal

/-- A sum over `n + n` terms is the sum of the first `n` plus the sum of the last `n`. -/
theorem sum_fin_double {M : Type*} [AddCommMonoid M] (n : Nat) (f : Fin (n + n) → M) :
    ∑ k, f k = ∑ k : Fin n, f ⟨k.val, by omega⟩ + ∑ k : Fin n, f ⟨n + k.val, by omega⟩ :=
  Fin.sum_univ_add f

/-- The dimension numbers of the closing product: [50000, 256] × [256, 128], contracting the 256. -/
abbrev DD : DotDims S50000x256 S256x128 S50000x128 := dot_S50000x256_S256x128_S50000x128_1_0_0_1_n_n

theorem lhs0 (i : S50000x128.Idx) (q : DD.contr.Idx) : (DD.lhsIdx i q 0).val = (i 0).val := by
  unfold DotDims.lhsIdx
  rw [dif_neg (show ¬(0 : Fin S50000x256.rank) ∈ DD.lhsBatch by decide),
    dif_pos (show (0 : Fin S50000x256.rank) ∈ DD.lhsNonContracting by decide)]
  rfl
theorem lhs1 (i : S50000x128.Idx) (q : DD.contr.Idx) : (DD.lhsIdx i q 1).val = (q ⟨0, by decide⟩).val :=
  DD.lhsIdx_val_of_single rfl i q
theorem rhs0 (i : S50000x128.Idx) (q : DD.contr.Idx) : (DD.rhsIdx i q 0).val = (q ⟨0, by decide⟩).val :=
  DD.rhsIdx_val_of_single rfl i q
theorem rhs1 (i : S50000x128.Idx) (q : DD.contr.Idx) : (DD.rhsIdx i q 1).val = (i 1).val := by
  unfold DotDims.rhsIdx
  rw [dif_neg (show ¬(1 : Fin S256x128.rank) ∈ DD.rhsBatch by decide),
    dif_pos (show (1 : Fin S256x128.rank) ∈ DD.rhsNonContracting by decide)]
  rfl

/-- The product at entry (r, c): the sum over the 256 contracted channels. -/
theorem dot_apply (X : S50000x256.Idx → EReal) (wl : S256x128.Idx → EReal) (r : Fin 50000) (c : Fin 128) :
    Host.dotGeneral (F := Ideal) (φ₁ := .f32) (φ₂ := .f32) DD none X wl (ix2 r c)
      = ∑ k : Fin 256, X (ix2 r k) * wl (ix2 k c) := by
  simp only [Host.dotGeneral]
  rw [Ideal.dotGeneral_apply, ← Equiv.sum_comp (contrEquiv1 DD 256 rfl rfl).symm]
  refine Finset.sum_congr rfl fun k _ => ?_
  have hk := contrEquiv1_symm_val DD 256 rfl rfl k
  have el : DD.lhsIdx (ix2 r c) ((contrEquiv1 DD 256 rfl rfl).symm k) = ix2 r k := funext fun a => Fin.ext (by
    match a with
    | ⟨0, _⟩ => exact lhs0 _ _
    | ⟨1, _⟩ => exact (lhs1 _ _).trans hk)
  have er : DD.rhsIdx (ix2 r c) ((contrEquiv1 DD 256 rfl rfl).symm k) = ix2 k c := funext fun a => Fin.ext (by
    match a with
    | ⟨0, _⟩ => exact (rhs0 _ _).trans hk
    | ⟨1, _⟩ => exact rhs1 _ _)
  rw [el, er]

/-- The concatenation [x1 | x2] at a channel below 128 is x1 there. -/
theorem concat_left (hc : Shape.Concatenates [S50000x128, S50000x128] S50000x256 1)
    (x1 x2 : S50000x128.Idx → EReal) (r : Fin 50000) (k : Fin 128) :
    concatenate S50000x256 1 [⟨S50000x128, x1⟩, ⟨S50000x128, x2⟩] hc (ix2 r (⟨k.val, by omega⟩ : Fin 256)) = x1 (ix2 r k) := by
  refine concatenate_pair_apply_left (t := S50000x256) (s₁ := S50000x128) (s₂ := S50000x128) (1 : Fin 2) x1 x2 hc _ rfl
    (ix2 r k) ?_
  intro b
  match b with
  | ⟨0, _⟩ => rfl
  | ⟨1, _⟩ => rfl

/-- The concatenation [x1 | x2] at channel 128 + k is x2 at channel k. -/
theorem concat_right (hc : Shape.Concatenates [S50000x128, S50000x128] S50000x256 1)
    (x1 x2 : S50000x128.Idx → EReal) (r : Fin 50000) (k : Fin 128) :
    concatenate S50000x256 1 [⟨S50000x128, x1⟩, ⟨S50000x128, x2⟩] hc (ix2 r (⟨128 + k.val, by omega⟩ : Fin 256)) = x2 (ix2 r k) := by
  refine concatenate_pair_apply_right (t := S50000x256) (s₁ := S50000x128) (s₂ := S50000x128) (1 : Fin 2) x1 x2 hc _ rfl rfl
    (ix2 r k) ?_ ?_
  · intro b hb
    match b with
    | ⟨0, _⟩ => rfl
    | ⟨1, _⟩ => exact absurd rfl hb
  · show k.val + 128 = 128 + k.val
    omega

/-- The bias, broadcast to a row and then down the nodes, at entry (r, c) is the bias at c. -/
theorem bias_apply (hb1 : S128.BroadcastsInDim S1x128 (![1] : Fin 1 → Fin S1x128.rank))
    (hb2 : S1x128.BroadcastsInDim S50000x128 (![0, 1] : Fin 2 → Fin S50000x128.rank))
    (bl : S128.Idx → EReal) (r : Fin 50000) (c : Fin 128) :
    broadcastInDim S50000x128 ![0, 1] hb2 (broadcastInDim S1x128 ![1] hb1 bl) (ix2 r c) = bl (ix1 c) := by
  refine (broadcastInDim_apply _ hb2 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  exact broadcastInDim_apply _ hb1 bl (ix2 (0 : Fin 1) c) (ix1 c) (fun a => match a with
    | ⟨0, _⟩ => by show c.val = if (128 : Nat) = 1 then 0 else c.val; rw [if_neg (by decide)])

/-- The bias reshaped to a row, at (0, c), is the bias at c. -/
theorem biasRow_apply (hsc : S128.ShapeCasts S1x128) (bl : S128.Idx → EReal) (c : Fin 128) :
    shapeCast S1x128 bl hsc (ix2 (0 : Fin 1) c) = bl (ix1 c) := by
  refine shapeCast_apply bl hsc (ix2 (0 : Fin 1) c) (ix1 c) ?_
  rw [Shape.rowMajor_val_two, Shape.rowMajor_val_one]
  show c.val = 0 * 128 + c.val
  omega

/-- The upper half of the stacked weights at (k, c). -/
theorem slice0_apply (hs0 : S256x128.Slices ![0, 0] S128x128) (wl : S256x128.Idx → EReal) (k c : Fin 128) :
    extractStridedSlice S128x128 ![0, 0] wl hs0 (ix2 k c) = wl (ix2 (⟨k.val, by omega⟩ : Fin 256) c) := by
  refine extractStridedSlice_apply _ wl hs0 (ix2 k c) (ix2 (⟨k.val, by omega⟩ : Fin 256) c) (fun a => match a with
    | ⟨0, _⟩ => by show k.val = 0 + k.val; omega
    | ⟨1, _⟩ => by show c.val = 0 + c.val; omega)

/-- The lower half of the stacked weights at (k, c). -/
theorem slice1_apply (hs1 : S256x128.Slices ![128, 0] S128x128) (wl : S256x128.Idx → EReal) (k c : Fin 128) :
    extractStridedSlice S128x128 ![128, 0] wl hs1 (ix2 k c) = wl (ix2 (⟨128 + k.val, by omega⟩ : Fin 256) c) := by
  refine extractStridedSlice_apply _ wl hs1 (ix2 k c) (ix2 (⟨128 + k.val, by omega⟩ : Fin 256) c) (fun a => match a with
    | ⟨0, _⟩ => by show 128 + k.val = 128 + k.val; rfl
    | ⟨1, _⟩ => by show c.val = 0 + c.val; omega)

/-- The closing linear map, for any proofs of the shape conditions. -/
theorem lin_eq_of (hc : Shape.Concatenates [S50000x128, S50000x128] S50000x256 1)
    (hb1 : S128.BroadcastsInDim S1x128 (![1] : Fin 1 → Fin S1x128.rank))
    (hb2 : S1x128.BroadcastsInDim S50000x128 (![0, 1] : Fin 2 → Fin S50000x128.rank))
    (hs0 : S256x128.Slices ![0, 0] S128x128) (hs1 : S256x128.Slices ![128, 0] S128x128)
    (hsc : S128.ShapeCasts S1x128)
    (x1 x2 : S50000x128.Idx → EReal) (wl : S256x128.Idx → EReal) (bl : S128.Idx → EReal) :
    addf (F := Ideal) (φ := .f32)
        (Host.dotGeneral (F := Ideal) (φ₁ := .f32) (φ₂ := .f32) dot_S50000x256_S256x128_S50000x128_1_0_0_1_n_n none
          (concatenate S50000x256 1 [⟨S50000x128, x1⟩, ⟨S50000x128, x2⟩] hc) wl)
        (broadcastInDim S50000x128 ![0, 1] hb2 (broadcastInDim S1x128 ![1] hb1 bl))
      = Cert.Spec.lin x1 x2 (extractStridedSlice S128x128 ![0, 0] wl hs0) (extractStridedSlice S128x128 ![128, 0] wl hs1)
          (shapeCast S1x128 bl hsc) := by
  funext j
  obtain ⟨r, c, rfl⟩ : ∃ (r : Fin 50000) (c : Fin 128), j = ix2 r c := ⟨j 0, j 1, eq_ix2 j⟩
  refine (addf_apply _ _ _).trans ?_
  rw [bias_apply hb1 hb2 bl r c]
  have hA := dot_apply (concatenate S50000x256 1 [⟨S50000x128, x1⟩, ⟨S50000x128, x2⟩] hc) wl r c
  refine (congrArg (· + bl (ix1 c)) hA).trans ?_
  rw [sum_fin_double 128 (fun k : Fin 256 => concatenate S50000x256 1 [⟨S50000x128, x1⟩, ⟨S50000x128, x2⟩] hc (ix2 r k) * wl (ix2 k c))]
  show _ = (∑ k : Fin 128, x1 (ix2 r k) * extractStridedSlice S128x128 ![0, 0] wl hs0 (ix2 k c)
      + ∑ k : Fin 128, x2 (ix2 r k) * extractStridedSlice S128x128 ![128, 0] wl hs1 (ix2 k c))
      + shapeCast S1x128 bl hsc (ix2 (0 : Fin 1) c)
  rw [biasRow_apply hsc bl c]
  refine congrArg (· + bl (ix1 c)) (congrArg₂ (· + ·) ?_ ?_)
  · refine Finset.sum_congr rfl fun k _ => ?_
    show concatenate S50000x256 1 [⟨S50000x128, x1⟩, ⟨S50000x128, x2⟩] hc (ix2 r (⟨k.val, by omega⟩ : Fin 256))
        * wl (ix2 (⟨k.val, by omega⟩ : Fin 256) c) = _
    rw [concat_left hc x1 x2 r k, slice0_apply hs0 wl k c]
  · refine Finset.sum_congr rfl fun k _ => ?_
    show concatenate S50000x256 1 [⟨S50000x128, x1⟩, ⟨S50000x128, x2⟩] hc (ix2 r (⟨128 + k.val, by omega⟩ : Fin 256))
        * wl (ix2 (⟨128 + k.val, by omega⟩ : Fin 256) c) = _
    rw [concat_right hc x1 x2 r k, slice1_apply hs1 wl k c]

/-- The closing linear map, at the shape conditions' proofs of the two programs' generated modules. -/
theorem lin_eq (x1 x2 : S50000x128.Idx → EReal) (wl : S256x128.Idx → EReal) (bl : S128.Idx → EReal) :
    addf (F := Ideal) (φ := .f32)
        (Host.dotGeneral (F := Ideal) (φ₁ := .f32) (φ₂ := .f32) dot_S50000x256_S256x128_S50000x128_1_0_0_1_n_n none
          (concatenate S50000x256 1 [⟨S50000x128, x1⟩, ⟨S50000x128, x2⟩]
            Cert.ReferenceIdeal.Gen.concatenates_S50000x128_S50000x128_S50000x256_d1) wl)
        (broadcastInDim S50000x128 ![0, 1] Cert.ReferenceIdeal.Gen.bcast_S1x128_S50000x128_0_1
          (broadcastInDim S1x128 ![1] Cert.ReferenceIdeal.Gen.bcast_S128_S1x128_1 bl))
      = Cert.Spec.lin x1 x2
          (extractStridedSlice Cert.KernelIdeal.S128x128 ![0, 0] wl Cert.KernelIdeal.Gen.slices_S256x128_S128x128_0_0)
          (extractStridedSlice Cert.KernelIdeal.S128x128 ![128, 0] wl Cert.KernelIdeal.Gen.slices_S256x128_S128x128_128_0)
          (shapeCast Cert.KernelIdeal.S1x128 bl Cert.KernelIdeal.Gen.shapeCasts_S128_S1x128) :=
  lin_eq_of _ _ _ _ _ _ x1 x2 wl bl

end Cert.RefLin

end
-- ==== Proof.RefValue.lean ====
/-
  The idealized reference's result as the same function of the arguments as the kernel's. The reference runs the
  layer twice — the second time on the first's output — and multiplies the two outputs, set side by side, with the
  closing weights. Each layer is the kernel's restructured layer (self-loops taken out of the edge list and added
  as a term of their own; the normalisation applied in two steps), and the product with the side-by-side outputs is
  the sum of the two products with the halves of the weights.
-/
import proofs.«150803_j30777735643935_2_alg».proof.Proof.RefRead
import proofs.«150803_j30777735643935_2_alg».proof.Proof.KSpec
import proofs.«150803_j30777735643935_2_alg».proof.Proof.Layer
import proofs.«150803_j30777735643935_2_alg».proof.Proof.Blocks2Lin

noncomputable section

namespace Cert.RefValue

open Cert.ReferenceIdeal Cert.ReferenceIdeal.Gen Cert.ReferenceIdeal.ReadP Idealize.ShloMosaic Idealize.ShloMosaic.TcCoe

/-- The reference's second layer is its first layer's function applied to the first layer's output. -/
theorem second_layer (x0 : S50000x128.Idx → EReal) (x1 : IVec S2x640000 32) (x2 : S128x128.Idx → EReal) (x3 : S128.Idx → EReal)
    (x4 : S128x128.Idx → EReal) (x5 : S128.Idx → EReal) :
    val_main_v95 (F := Ideal) x0 x1 x2 x3 x4 x5 = val_main_v47 (F := Ideal) (val_main_v47 (F := Ideal) x0 x1 x2 x3) x1 x4 x5 := rfl

/-- The reference's result is the kernel's function of the arguments. -/
theorem result (x0 : S50000x128.Idx → EReal) (x1 : IVec S2x640000 32) (x2 : S128x128.Idx → EReal) (x3 : S128.Idx → EReal)
    (x4 : S128x128.Idx → EReal) (x5 : S128.Idx → EReal) (x6 : S256x128.Idx → EReal) (x7 : S128.Idx → EReal) :
    val_main_v100 (F := Ideal) x0 x1 x2 x3 x4 x5 x6 x7 = Cert.KernelIdeal.KSpec.out x0 x1 x2 x3 x4 x5 x6 x7 := by
  unfold val_main_v100 val_main_v97 val_main_v96 val_main_v99 val_main_v98
  rw [second_layer, Cert.Layer.layer_eq, Cert.Layer.layer_eq]
  exact Cert.RefLin.lin_eq _ _ x6 x7

end Cert.RefValue

end
-- ==== Proof.lean ====
/-
  Two layers of graph convolution followed by a linear map on the two layers' outputs side by side: the Pallas
  kernel against its jnp reference, over the extended reals.

  The reference appends one self-loop per node to the edge list and, per layer, gathers the transformed features
  h = X · W at every edge's source node, scales each by dinv[source] · dinv[destination] (dinv = degree^(-1/2), the
  degree counted over edges and self-loops), and adds the results up at the destination nodes. The kernel keeps the
  self-loops out of the edge list: its degree is the count over the real edges plus one, it scales h by dinv once
  per node before the gather and by dinv[destination] after it, and it adds the self-loop's share dinv² · h as a
  separate term inside the next region. The two agree because a sum over the edges-and-self-loops is the sum over
  the edges plus the self-loop's term, the degree is at least one (so the reference's guard on a positive degree
  always takes the reciprocal square root), and products and sums of extended reals may be regrouped. The closing
  product with the 256-channel concatenation is the sum of the two 128-channel products with the halves of the
  weights. Rounding to bf16 before a product or a gather is the identity on the extended reals.

  The three frames: the word-level kernel and the idealized kernel by their generated frame proofs; the reference's
  by its run with the result dropped. Nothing was rewritten by the ideal pass, so `preserves` is trivial.
-/
import proofs.«150803_j30777735643935_2_alg».proof.Defs
import proofs.«150803_j30777735643935_2_alg».proof.Proof.Gen.Kernel
import proofs.«150803_j30777735643935_2_alg».proof.Proof.Gen.Kernel.Frame
import proofs.«150803_j30777735643935_2_alg».proof.Proof.Gen.KernelIdeal
import proofs.«150803_j30777735643935_2_alg».proof.Proof.Gen.KernelIdeal.Frame
import proofs.«150803_j30777735643935_2_alg».proof.Proof.Gen.ReferenceIdeal
import proofs.«150803_j30777735643935_2_alg».proof.Proof.Gen.Pre_finite_inputs
import proofs.«150803_j30777735643935_2_alg».proof.Proof.KernelRun
import proofs.«150803_j30777735643935_2_alg».proof.Proof.KernelValue
import proofs.«150803_j30777735643935_2_alg».proof.Proof.RefRun
import proofs.«150803_j30777735643935_2_alg».proof.Proof.RefRead
import proofs.«150803_j30777735643935_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the result array at the kernel's function of the (agreeing) arguments. -/
theorem algebraic : Cert.algebraic_KernelIdeal_ReferenceIdeal := by
  intro m ρ m' ρ' _ hagree
  refine ⟨fun c => Cert.KernelIdeal.KSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v100_eq, Cert.RefValue.result, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
